-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S128x384 : Shape := ⟨2, ![128, 384]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S128x384 : S_.BroadcastsInDim S128x384 (![] : Fin 0 → Fin S128x384.rank)
  reducesTo_S128x384_S_d0_1 : S128x384.ReducesTo [0, 1] S_

variable [Facts]

def fn_part1 {F : FTy → Type} [FloatOps F] (main_arg6 : FVec F S128 .f32) (main_arg7 : FVec F S128x384 .f32) (main_arg8 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x384 .f32 := Host.absf main_arg7
  let main_cst_8 : FVec F S_ .f32 := constant S_ .f32 0x7F800000#32
  let main_v25 : FVec F S128x384 .f32 := broadcastInDim S128x384 ![] bcast_S_S128x384 main_cst_8
  let main_v26 : IVec S128x384 1 := cmpf .olt main_v24 main_v25
  let main_c_9 : IVec S_ 1 := constantI S_ 1 1#1
  let main_v27 : IVec S_ 1 := (fun x v => Host.reduce IntOp.andi x v reducesTo_S128x384_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x256 .f32) (main_arg6 : FVec F S128 .f32) (main_arg7 : FVec F S128x384 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S128x384 : Shape := ⟨2, ![128, 384]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S2000x128 : Shape := ⟨2, ![2000, 128]⟩
abbrev S2000x1 : Shape := ⟨2, ![2000, 1]⟩
abbrev S1600000x128 : Shape := ⟨2, ![1600000, 128]⟩

abbrev nBuf : Space → Nat
  | .hbm => 71
  | .vmem => 45
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x384, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S_, .f32⟩
  | .hbm, ⟨21, _⟩ => ⟨S100000x1, .f32⟩
  | .hbm, ⟨22, _⟩ => ⟨S100000x1, .f32⟩
  | .hbm, ⟨23, _⟩ => ⟨S_, .f32⟩
  | .hbm, ⟨24, _⟩ => ⟨S100000x1, .f32⟩
  | .hbm, ⟨25, _⟩ => ⟨S100000x1, .f32⟩
  | .hbm, ⟨26, _⟩ => ⟨S128x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S128x128, .f32⟩
  | .hbm, ⟨64, _⟩ => ⟨S128x128, .f32⟩
  | .hbm, ⟨65, _⟩ => ⟨S128x128, .f32⟩
  | .hbm, ⟨66, _⟩ => ⟨S128x128, .f32⟩
  | .hbm, ⟨67, _⟩ => ⟨S128x128, .f32⟩
  | .hbm, ⟨68, _⟩ => ⟨S128x128, .f32⟩
  | .hbm, ⟨69, _⟩ => ⟨S1x128, .f32⟩
  | .hbm, ⟨70, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x1, .f32⟩
  | .local _ .vmem, ⟨5, _⟩ => ⟨S2000x1, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S2000x1, .f32⟩
  | .local _ .vmem, ⟨19, _⟩ => ⟨S2000x1, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x1, .f32⟩
  | .local _ .vmem, ⟨36, _⟩ => ⟨S2000x1, .f32⟩
  | .local _ .vmem, ⟨37, _⟩ => ⟨S2000x1, .f32⟩
  | .local _ .vmem, ⟨38, _⟩ => ⟨S2000x1, .f32⟩
  | .local _ .vmem, ⟨39, _⟩ => ⟨S128x128, .f32⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S2000x128, .f32⟩
  | .local _ .vmem, ⟨44, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28_0 : Ref sig .tc := ⟨.hbm, 48, rfl⟩
abbrev main_v28_1 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc2_stg4_0 : Ref sig .tc := ⟨.vmem, 35, rfl⟩
abbrev cc2_stg4_1 : Ref sig .tc := ⟨.vmem, 36, rfl⟩
abbrev cc2_stg5_0 : Ref sig .tc := ⟨.vmem, 37, rfl⟩
abbrev cc2_stg5_1 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg8_0 : Ref sig .tc := ⟨.vmem, 41, rfl⟩
abbrev cc2_stg9_0 : Ref sig .tc := ⟨.vmem, 42, rfl⟩
abbrev cc2_stg10_0 : Ref sig .tc := ⟨.vmem, 43, rfl⟩
abbrev cc2_stg10_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem8_1 : DmaSem sig := 24
abbrev cc1_sem9_0 : DmaSem sig := 25
abbrev cc1_sem9_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem3_1 : DmaSem sig := 34
abbrev cc2_sem4_0 : DmaSem sig := 35
abbrev cc2_sem4_1 : DmaSem sig := 36
abbrev cc2_sem5_0 : DmaSem sig := 37
abbrev cc2_sem5_1 : DmaSem sig := 38
abbrev cc2_sem6_0 : DmaSem sig := 39
abbrev cc2_sem7_0 : DmaSem sig := 40
abbrev cc2_sem8_0 : DmaSem sig := 41
abbrev cc2_sem9_0 : DmaSem sig := 42
abbrev cc2_sem10_0 : DmaSem sig := 43
abbrev cc2_sem10_1 : DmaSem sig := 44

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S100000x128 : S_.BroadcastsInDim S100000x128 (![] : Fin 0 → Fin S100000x128.rank)
  slices_S128x256_S128x128_0_0 : S128x256.Slices ![0, 0] S128x128
  slices_S128x256_S128x128_0_128 : S128x256.Slices ![0, 128] S128x128
  shapeCasts_S2000x128_S2000x128 : S2000x128.ShapeCasts S2000x128
  slices_S128x384_S128x128_0_0 : S128x384.Slices ![0, 0] S128x128
  slices_S128x384_S128x128_0_128 : S128x384.Slices ![0, 128] S128x128
  slices_S128x384_S128x128_0_256 : S128x384.Slices ![0, 256] S128x128
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .f32 = 32 ∨ (Rect.block (s := S100000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S100000x1.size a
  hwx1_4 : ∀ i : grid1.Coords, EltTy.bits .f32 = 32 ∨ (Rect.block (s := S100000x1) S2000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S100000x128.size a
  hwx1_8 : ∀ i : grid1.Coords, EltTy.bits .f32 = 32 ∨ (Rect.block (s := S100000x128) S2000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S100000x128.size a
  hwx1_9 : ∀ i : grid1.Coords, EltTy.bits .f32 = 32 ∨ (Rect.block (s := S100000x128) S2000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S100000x1.size a
  hwx2_4 : ∀ i : grid2.Coords, EltTy.bits .f32 = 32 ∨ (Rect.block (s := S100000x1) S2000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S100000x1.size a
  hwx2_5 : ∀ i : grid2.Coords, EltTy.bits .f32 = 32 ∨ (Rect.block (s := S100000x1) S2000x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x128.size a ≤ S100000x128.size a
  hwx2_10 : ∀ i : grid2.Coords, EltTy.bits .f32 = 32 ∨ (Rect.block (s := S100000x128) S2000x128.size (cc2_transform_10 i) (hinb2_10 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v24) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v28_0) S2000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v28_1) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12_0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28_0) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v7) S2000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v9) S2000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v40) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v44) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v45) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v46) S2000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S128x384 : Shape := ⟨2, ![128, 384]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1600000x128 : Shape := ⟨2, ![1600000, 128]⟩
abbrev S100000x256 : Shape := ⟨2, ![100000, 256]⟩
abbrev S256x128 : Shape := ⟨2, ![256, 128]⟩
abbrev S100000x384 : Shape := ⟨2, ![100000, 384]⟩
abbrev S384x128 : Shape := ⟨2, ![384, 128]⟩

abbrev nBuf : Space → Nat
  | .hbm => 83
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x384, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S_, .f32⟩
  | .hbm, ⟨21, _⟩ => ⟨S100000x1, .f32⟩
  | .hbm, ⟨22, _⟩ => ⟨S100000x1, .f32⟩
  | .hbm, ⟨23, _⟩ => ⟨S_, .f32⟩
  | .hbm, ⟨24, _⟩ => ⟨S100000x1, .f32⟩
  | .hbm, ⟨25, _⟩ => ⟨S100000x1, .f32⟩
  | .hbm, ⟨26, _⟩ => ⟨S128x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x256, .f32⟩
  | .hbm, ⟨47, _⟩ => ⟨S100000x128, .f32⟩
  | .hbm, ⟨48, _⟩ => ⟨S100000x128, .f32⟩
  | .hbm, ⟨49, _⟩ => ⟨S256x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x384, .f32⟩
  | .hbm, ⟨73, _⟩ => ⟨S100000x128, .f32⟩
  | .hbm, ⟨74, _⟩ => ⟨S100000x128, .f32⟩
  | .hbm, ⟨75, _⟩ => ⟨S384x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_6 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  concatenates_S100000x128_S100000x128_S100000x256_d1 : Shape.Concatenates [S100000x128, S100000x128] S100000x256 1
  transposes_S128x256_S256x128_1_0 : S128x256.Transposes [1, 0] S256x128
  concatenates_S100000x128_S100000x128_S100000x128_S100000x384_d1 : Shape.Concatenates [S100000x128, S100000x128, S100000x128] S100000x384 1
  transposes_S128x384_S384x128_1_0 : S128x384.Transposes [1, 0] S384x128
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []
  dot_S100000x384_S384x128_S100000x128_1_0_0_1_n_n_wf : DotDims.WF S100000x384 S384x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf

class Facts : Prop extends Facts₀ where

variable [Facts]
-- ==== Proof.RunNamed.lean ====
/-
  The idealized kernel's run with its result array named.

  Every weakly fair execution of the program ends, without a fault, in a state whose unscoped buffers hold the contents
  at the last segment boundary: the fold of the three stretches of host operations and the three regions' write-backs
  over the launch memory. Read at the result buffer this names the result array; read at an argument it is the launch
  contents, since no host operation and no region writes an argument.
-/
import proofs.«153759_j50448685859076_2_alg».proof.Proof.Gen.KernelIdeal.Frame

set_option maxRecDepth 16384

noncomputable section

namespace Cert.Gnn.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents there, and every argument as launched. -/
theorem run_named : θ_run defs (onTc (τ := τ) (main (F := F))) ⟨m, fun _ => 0, ρ⟩ (fun r => ∀ c : Dev nD,
      r.2.mem ((c.tc : Thread nD τ).loc main_v46) = W8 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v46 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.Gnn.Kern

end
-- ==== Proof.HostFacts.lean ====
/-
  What the buffers hold at each boundary between the host's operations and the three regions of the kernel's program.

  The contents at a boundary are a fold over the launch memory. Read at one buffer the fold is a computation: a buffer an
  operation writes holds that operation's function of its operands' contents, any other buffer holds what it held
  before; a region leaves every buffer but its two output arrays (one for the last region) as it found them. So at each
  region's entry the degree factors are the host's `max(1, in-degree) ^ (-1/2)` and `1 / max(1, in-degree)` of the
  destination indices, the weights are the transposed column blocks of the arguments, the bias is the argument laid out
  as a row, and the aggregated messages are the scatter-add over the destinations of the rows gathered at the sources
  (`aggOf`) of the previous region's second output. Stated for any float instance: nothing here opens an operation.
-/
import proofs.«153759_j50448685859076_2_alg».proof.Proof.Gen.KernelIdeal.Frame
import proofs.«153759_j50448685859076_2_alg».proof.Proof.Gen.ReferenceIdeal.Read

set_option maxRecDepth 16384

noncomputable section

namespace Cert.Gnn.Kern

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

/-- The aggregation of messages: the rows of `M` gathered at the source indices (a negative index wrapped by the number
    of nodes) and scatter-added into zero at the destination indices. -/
def aggOf (M : (⟨S100000x128, .f32⟩ : BufTy).Contents (Elt F)) (src dst : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 M
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The reference aggregates its first layer's messages in the same way. -/
theorem ref_agg1 (x0 : (⟨S100000x128, .f32⟩ : BufTy).Contents (Elt F)) (x1 x2 : (⟨S1600000, .i32⟩ : BufTy).Contents (Elt F))
    (x3 : (⟨S128x128, .f32⟩ : BufTy).Contents (Elt F)) (x4 : (⟨S128, .f32⟩ : BufTy).Contents (Elt F)) :
    Cert.ReferenceIdeal.Read.val_main_v26 (F := F) x0 x1 x2 x3 x4
      = aggOf (Cert.ReferenceIdeal.Read.val_main_v16 (F := F) x0 x2 x3 x4) x1 x2 := rfl

/-- And its second layer's. -/
theorem ref_agg2 (x0 : (⟨S100000x128, .f32⟩ : BufTy).Contents (Elt F)) (x1 x2 : (⟨S1600000, .i32⟩ : BufTy).Contents (Elt F))
    (x3 : (⟨S128x128, .f32⟩ : BufTy).Contents (Elt F)) (x4 : (⟨S128, .f32⟩ : BufTy).Contents (Elt F))
    (x5 : (⟨S128x256, .f32⟩ : BufTy).Contents (Elt F)) (x6 : (⟨S128, .f32⟩ : BufTy).Contents (Elt F)) :
    Cert.ReferenceIdeal.Read.val_main_v49 (F := F) x0 x1 x2 x3 x4 x5 x6
      = aggOf (Cert.ReferenceIdeal.Read.val_main_v39 (F := F) x0 x1 x2 x3 x4 x5 x6) x1 x2 := rfl

variable (m : (ℓ : Loc nD τ sig) → Buf (Elt F) ℓ) (ρ : Dev nD → PrngReg) (c : Dev nD)

/-! ## At the first region's entry -/

theorem w3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results

theorem w3_arg1 : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  after_results

theorem w3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results

theorem w3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results

theorem w3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results

theorem w3_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results

theorem w3_arg8 : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results

/-- The degree factor `max(1, deg) ^ (-1/2)`, a column. -/
theorem w3_v7 : W3 m ρ c (Proc.devRef .tc main_v7) = Cert.ReferenceIdeal.Read.val_main_v7 (F := F) (m ((c : Thread nD τ).loc main_arg2)) := by
  show StableHlo.after hostOps0_2 (StableHlo.after hostOps0_1 (StableHlo.after hostOps0 (W0 m ρ c))) (Proc.devRef .tc main_v7) = _
  after_results
  rfl

/-- The degree factor `1 / max(1, deg)`, a column. -/
theorem w3_v9 : W3 m ρ c (Proc.devRef .tc main_v9) = Cert.ReferenceIdeal.Read.val_main_v9 (F := F) (m ((c : Thread nD τ).loc main_arg2)) := by
  show StableHlo.after hostOps0_2 (StableHlo.after hostOps0_1 (StableHlo.after hostOps0 (W0 m ρ c))) (Proc.devRef .tc main_v9) = _
  after_results
  rfl

/-- The first weight, transposed. -/
theorem w3_v10 : W3 m ρ c (Proc.devRef .tc main_v10)
    = transpose S128x128 [1, 0] (m ((c : Thread nD τ).loc main_arg3)) transposes_S128x128_S128x128_1_0 := by
  show StableHlo.after hostOps0_2 (StableHlo.after hostOps0_1 (StableHlo.after hostOps0 (W0 m ρ c))) (Proc.devRef .tc main_v10) = _
  after_results

/-- The first bias, as a row. -/
theorem w3_v11 : W3 m ρ c (Proc.devRef .tc main_v11)
    = shapeCast S1x128 (m ((c : Thread nD τ).loc main_arg4)) shapeCasts_S128_S1x128 := by
  show StableHlo.after hostOps0_2 (StableHlo.after hostOps0_1 (StableHlo.after hostOps0 (W0 m ρ c))) (Proc.devRef .tc main_v11) = _
  after_results
  rfl

/-! ## A region leaves every buffer but its output arrays as it found them -/

theorem W4_keep (b : Ref sig .tc) (h4 : b ≠ main_v12_0) (h5 : b ≠ main_v12_1) :
    W4 m ρ c (Proc.devRef .tc b) = W3 m ρ c (Proc.devRef .tc b) := by
  by_cases h : ∃ w : Fin cfg0.W, Pipeline.arrRef spec0 w = b
  · obtain ⟨w, rfl⟩ := h
    have key : ∀ w : Fin cfg0.W, (cfg0.win w).isOut = false →
        W4 m ρ c (Proc.devRef .tc (Pipeline.arrRef spec0 w)) = W3 m ρ c (Proc.devRef .tc (Pipeline.arrRef spec0 w)) :=
      fun w hw => (W4_arr m ρ c w).trans (((dat0 (V3 m ρ) c).arrAt_in w hw _).trans (A_eq0 (V3 m ρ) c w))
    fin_cases w
    · exact key 0 rfl
    · exact key 1 rfl
    · exact key 2 rfl
    · exact key 3 rfl
    · exact absurd rfl h4
    · exact absurd rfl h5
  · exact W4_of_ne m ρ c b (fun w e => h ⟨w, e⟩)

theorem W6_keep (b : Ref sig .tc) (h8 : b ≠ main_v28_0) (h9 : b ≠ main_v28_1) :
    W6 m ρ c (Proc.devRef .tc b) = W5 m ρ c (Proc.devRef .tc b) := by
  by_cases h : ∃ w : Fin cfg1.W, Pipeline.arrRef spec1 w = b
  · obtain ⟨w, rfl⟩ := h
    have key : ∀ w : Fin cfg1.W, (cfg1.win w).isOut = false →
        W6 m ρ c (Proc.devRef .tc (Pipeline.arrRef spec1 w)) = W5 m ρ c (Proc.devRef .tc (Pipeline.arrRef spec1 w)) :=
      fun w hw => (W6_arr m ρ c w).trans (((dat1 (V5 m ρ) c).arrAt_in w hw _).trans (A_eq1 (V5 m ρ) c w))
    fin_cases w
    · exact key 0 rfl
    · exact key 1 rfl
    · exact key 2 rfl
    · exact key 3 rfl
    · exact key 4 rfl
    · exact key 5 rfl
    · exact key 6 rfl
    · exact key 7 rfl
    · exact absurd rfl h8
    · exact absurd rfl h9
  · exact W6_of_ne m ρ c b (fun w e => h ⟨w, e⟩)

/-! ## At the second region's entry -/

theorem w5_arg0 : W5 m ρ c (Proc.devRef .tc main_arg0) = W4 m ρ c (Proc.devRef .tc main_arg0) := by
  show StableHlo.after hostOps1 (W4 m ρ c) (Proc.devRef .tc main_arg0) = _
  after_results

theorem w5_arg1 : W5 m ρ c (Proc.devRef .tc main_arg1) = W4 m ρ c (Proc.devRef .tc main_arg1) := by
  show StableHlo.after hostOps1 (W4 m ρ c) (Proc.devRef .tc main_arg1) = _
  after_results

theorem w5_arg2 : W5 m ρ c (Proc.devRef .tc main_arg2) = W4 m ρ c (Proc.devRef .tc main_arg2) := by
  show StableHlo.after hostOps1 (W4 m ρ c) (Proc.devRef .tc main_arg2) = _
  after_results

theorem w5_arg7 : W5 m ρ c (Proc.devRef .tc main_arg7) = W4 m ρ c (Proc.devRef .tc main_arg7) := by
  show StableHlo.after hostOps1 (W4 m ρ c) (Proc.devRef .tc main_arg7) = _
  after_results

theorem w5_arg8 : W5 m ρ c (Proc.devRef .tc main_arg8) = W4 m ρ c (Proc.devRef .tc main_arg8) := by
  show StableHlo.after hostOps1 (W4 m ρ c) (Proc.devRef .tc main_arg8) = _
  after_results

theorem w5_v7 : W5 m ρ c (Proc.devRef .tc main_v7) = W4 m ρ c (Proc.devRef .tc main_v7) := by
  show StableHlo.after hostOps1 (W4 m ρ c) (Proc.devRef .tc main_v7) = _
  after_results

theorem w5_v9 : W5 m ρ c (Proc.devRef .tc main_v9) = W4 m ρ c (Proc.devRef .tc main_v9) := by
  show StableHlo.after hostOps1 (W4 m ρ c) (Proc.devRef .tc main_v9) = _
  after_results

theorem w5_v12_0 : W5 m ρ c (Proc.devRef .tc main_v12_0) = W4 m ρ c (Proc.devRef .tc main_v12_0) := by
  show StableHlo.after hostOps1 (W4 m ρ c) (Proc.devRef .tc main_v12_0) = _
  after_results

/-- The aggregated messages of the first layer. -/
theorem w5_v22 : W5 m ρ c (Proc.devRef .tc main_v22)
    = aggOf (W4 m ρ c (Proc.devRef .tc main_v12_1)) (W4 m ρ c (Proc.devRef .tc main_arg1)) (W4 m ρ c (Proc.devRef .tc main_arg2)) := by
  show StableHlo.after hostOps1 (W4 m ρ c) (Proc.devRef .tc main_v22) = _
  after_results
  rfl

theorem w5_v24 : W5 m ρ c (Proc.devRef .tc main_v24)
    = transpose S128x128 [1, 0] (extractStridedSlice S128x128 ![0, 0] (W4 m ρ c (Proc.devRef .tc main_arg5)) slices_S128x256_S128x128_0_0)
        transposes_S128x128_S128x128_1_0 := by
  show StableHlo.after hostOps1 (W4 m ρ c) (Proc.devRef .tc main_v24) = _
  after_results

theorem w5_v26 : W5 m ρ c (Proc.devRef .tc main_v26)
    = transpose S128x128 [1, 0] (extractStridedSlice S128x128 ![0, 128] (W4 m ρ c (Proc.devRef .tc main_arg5)) slices_S128x256_S128x128_0_128)
        transposes_S128x128_S128x128_1_0 := by
  show StableHlo.after hostOps1 (W4 m ρ c) (Proc.devRef .tc main_v26) = _
  after_results

theorem w5_v27 : W5 m ρ c (Proc.devRef .tc main_v27)
    = shapeCast S1x128 (W4 m ρ c (Proc.devRef .tc main_arg6)) shapeCasts_S128_S1x128 := by
  show StableHlo.after hostOps1 (W4 m ρ c) (Proc.devRef .tc main_v27) = _
  after_results
  rfl

/-! ## At the third region's entry -/

theorem w7_arg0 : W7 m ρ c (Proc.devRef .tc main_arg0) = W6 m ρ c (Proc.devRef .tc main_arg0) := by
  show StableHlo.after hostOps2 (W6 m ρ c) (Proc.devRef .tc main_arg0) = _
  after_results

theorem w7_v7 : W7 m ρ c (Proc.devRef .tc main_v7) = W6 m ρ c (Proc.devRef .tc main_v7) := by
  show StableHlo.after hostOps2 (W6 m ρ c) (Proc.devRef .tc main_v7) = _
  after_results

theorem w7_v9 : W7 m ρ c (Proc.devRef .tc main_v9) = W6 m ρ c (Proc.devRef .tc main_v9) := by
  show StableHlo.after hostOps2 (W6 m ρ c) (Proc.devRef .tc main_v9) = _
  after_results

theorem w7_v12_0 : W7 m ρ c (Proc.devRef .tc main_v12_0) = W6 m ρ c (Proc.devRef .tc main_v12_0) := by
  show StableHlo.after hostOps2 (W6 m ρ c) (Proc.devRef .tc main_v12_0) = _
  after_results

theorem w7_v28_0 : W7 m ρ c (Proc.devRef .tc main_v28_0) = W6 m ρ c (Proc.devRef .tc main_v28_0) := by
  show StableHlo.after hostOps2 (W6 m ρ c) (Proc.devRef .tc main_v28_0) = _
  after_results

/-- The aggregated messages of the second layer. -/
theorem w7_v38 : W7 m ρ c (Proc.devRef .tc main_v38)
    = aggOf (W6 m ρ c (Proc.devRef .tc main_v28_1)) (W6 m ρ c (Proc.devRef .tc main_arg1)) (W6 m ρ c (Proc.devRef .tc main_arg2)) := by
  show StableHlo.after hostOps2 (W6 m ρ c) (Proc.devRef .tc main_v38) = _
  after_results
  rfl

theorem w7_v40 : W7 m ρ c (Proc.devRef .tc main_v40)
    = transpose S128x128 [1, 0] (extractStridedSlice S128x128 ![0, 0] (W6 m ρ c (Proc.devRef .tc main_arg7)) slices_S128x384_S128x128_0_0)
        transposes_S128x128_S128x128_1_0 := by
  show StableHlo.after hostOps2 (W6 m ρ c) (Proc.devRef .tc main_v40) = _
  after_results

theorem w7_v42 : W7 m ρ c (Proc.devRef .tc main_v42)
    = transpose S128x128 [1, 0] (extractStridedSlice S128x128 ![0, 128] (W6 m ρ c (Proc.devRef .tc main_arg7)) slices_S128x384_S128x128_0_128)
        transposes_S128x128_S128x128_1_0 := by
  show StableHlo.after hostOps2 (W6 m ρ c) (Proc.devRef .tc main_v42) = _
  after_results

theorem w7_v44 : W7 m ρ c (Proc.devRef .tc main_v44)
    = transpose S128x128 [1, 0] (extractStridedSlice S128x128 ![0, 256] (W6 m ρ c (Proc.devRef .tc main_arg7)) slices_S128x384_S128x128_0_256)
        transposes_S128x128_S128x128_1_0 := by
  show StableHlo.after hostOps2 (W6 m ρ c) (Proc.devRef .tc main_v44) = _
  after_results

theorem w7_v45 : W7 m ρ c (Proc.devRef .tc main_v45)
    = shapeCast S1x128 (W6 m ρ c (Proc.devRef .tc main_arg8)) shapeCasts_S128_S1x128 := by
  show StableHlo.after hostOps2 (W6 m ρ c) (Proc.devRef .tc main_v45) = _
  after_results
  rfl

end Cert.Gnn.Kern

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«153759_j50448685859076_2_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibDense.lean ====
/-
  The dense layers of the network as whole-array functions on the extended reals, and the host's spelling of each.

  A matrix with `M` rows and `N` columns is a function of its two coordinates. The layers are: a product plus a bias
  row (`lin`, from the bias-and-product module), the same with the contraction split over two pairs of operands
  (`lin2`), the plain product (`mm`), adding a row to every row of a matrix (`addRow`), and the positive part
  (`relu`). The host writes a layer as a `dot_general`, the bias broadcast in two steps to the matrix's shape,
  an addition, and a maximum with a broadcast zero; entry by entry these are the functions above.

  Two identities join the kernel's arrangement to the host's. A product whose left operand is two blocks set side by
  side, against a weight matrix, is the sum of the two blocks' products against the matching row ranges of the weight:
  the sum over the contraction index splits at the seam, which needs only that addition of extended reals is
  associative and commutative. And a product plus a row of zeros is the product.
-/
import Idealize.ShloMosaic.Lib.ValueIdx
import Idealize.ShloMosaic.Lib.Pipeline.Value
import Idealize.ShloMosaic.PureOps.Ideal.Laws
import proofs.«153759_j50448685859076_2_alg».proof.Proof.LibBiasDot

noncomputable section

open scoped BigOperators

namespace Cert.Lib.Dense

open Idealize.ShloMosaic Idealize.ShloMosaic.ValueIdx Cert.Lib.BiasDot

variable {M K K' N : Nat}

/-- The positive part, entry by entry. -/
def relu {s : Shape} (f : s.Idx → EReal) : s.Idx → EReal := fun i => max (f i) 0

/-- A row added to every row of a matrix. -/
def addRow (X : (⟨2, ![M, N]⟩ : Shape).Idx → EReal) (B : (⟨1, ![N]⟩ : Shape).Idx → EReal) :
    (⟨2, ![M, N]⟩ : Shape).Idx → EReal := fun i => X i + B (ix1 (i 1))

/-- The plain product: entry `(p, q)` is `∑ k, A (p, k) · W (k, q)`. -/
def mm (A : (⟨2, ![M, K]⟩ : Shape).Idx → EReal) (W : (⟨2, ![K, N]⟩ : Shape).Idx → EReal) :
    (⟨2, ![M, N]⟩ : Shape).Idx → EReal := fun i => ∑ k : Fin K, A (ix2 (i 0) k) * W (ix2 k (i 1))

/-- Two products added, plus a bias row: entry `(p, q)` is `∑ k, A (p, k) · Wa (k, q) + ∑ k, C (p, k) · Wb (k, q) + b q`. -/
def lin2 (A : (⟨2, ![M, K]⟩ : Shape).Idx → EReal) (Wa : (⟨2, ![K, N]⟩ : Shape).Idx → EReal)
    (C : (⟨2, ![M, K']⟩ : Shape).Idx → EReal) (Wb : (⟨2, ![K', N]⟩ : Shape).Idx → EReal)
    (B : (⟨1, ![N]⟩ : Shape).Idx → EReal) : (⟨2, ![M, N]⟩ : Shape).Idx → EReal :=
  fun i => ((∑ k : Fin K, A (ix2 (i 0) k) * Wa (ix2 k (i 1))) + (∑ k : Fin K', C (ix2 (i 0) k) * Wb (ix2 k (i 1))))
    + B (ix1 (i 1))

/-! ## The host's spelling, read at an entry -/

/-- A vector of length `N` broadcast to a `1 × N` row and then down `M` rows reads, at `(p, q)`, the vector at `q`. -/
theorem hostRow_apply {α : Type} (B : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 B) (ix2 p q) = B (ix1 q) := by
  refine (broadcastInDim_apply ![0, 1] h2 _ (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine broadcastInDim_apply ![1] h1 B (ix2 (0 : Fin 1) q) (ix1 q) (fun a => ?_)
    match a with
    | ⟨0, _⟩ =>
      show q.val = if N = 1 then 0 else q.val
      split
      · have := q.isLt; omega
      · rfl

/-- The zero scalar broadcast to any shape is zero everywhere. -/
theorem hostZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  refine (broadcastInDim_apply (s := ⟨0, ![]⟩) dims h _ j (fun a => a.elim0) (fun a => a.elim0)).trans ?_
  rw [constant_apply, Ideal.ofBits_zero_f32]

/-- The host's linear layer with the positive part: product, bias broadcast in two steps, sum, maximum with zero. -/
theorem host_lin_relu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none X W)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin X W B) := by
  subst hd
  funext i
  obtain ⟨p, q, rfl⟩ : ∃ (p : Fin M) (q : Fin N), i = ix2 p q := ⟨i 0, i 1, eq_ix2 i⟩
  rw [maximumf_apply, addf_apply, hostZero_apply, hostRow_apply]
  exact congrArg (fun z => max (z + B (ix1 q)) 0) (Cert.Lib.PlainDot.dotGeneral_apply none _ X W p q)

/-- The host's bias-and-positive-part layer. -/
theorem host_addRow_relu (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf X (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (addRow X B) := by
  funext i
  obtain ⟨p, q, rfl⟩ : ∃ (p : Fin M) (q : Fin N), i = ix2 p q := ⟨i 0, i 1, eq_ix2 i⟩
  rw [maximumf_apply, addf_apply, hostZero_apply, hostRow_apply]
  rfl

/-- The host's bias layer. -/
theorem host_addRow (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 B)) = addRow X B := by
  funext i
  obtain ⟨p, q, rfl⟩ : ∃ (p : Fin M) (q : Fin N), i = ix2 p q := ⟨i 0, i 1, eq_ix2 i⟩
  rw [addf_apply, hostRow_apply]
  rfl

/-- The host's plain product. -/
theorem host_mm (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = mm X W := by
  subst hd
  funext i
  obtain ⟨p, q, rfl⟩ : ∃ (p : Fin M) (q : Fin N), i = ix2 p q := ⟨i 0, i 1, eq_ix2 i⟩
  exact Cert.Lib.PlainDot.dotGeneral_apply none _ X W p q

/-! ## A left operand of two blocks side by side -/

section Concat

variable (A : (⟨2, ![M, K]⟩ : Shape).Idx → EReal) (C : (⟨2, ![M, K']⟩ : Shape).Idx → EReal)
  (Wc : (⟨2, ![K + K', N]⟩ : Shape).Idx → EReal)
  (hcat : Shape.Concatenates [(⟨2, ![M, K]⟩ : Shape), ⟨2, ![M, K']⟩] ⟨2, ![M, K + K']⟩ 1)
  (hs1 : (⟨2, ![K + K', N]⟩ : Shape).Slices ![0, 0] ⟨2, ![K, N]⟩)
  (hs2 : (⟨2, ![K + K', N]⟩ : Shape).Slices ![K, 0] ⟨2, ![K', N]⟩)

/-- Left of the seam the two blocks set side by side read the first block. -/
theorem concat_left (p : Fin M) (k : Fin K) :
    concatenate ⟨2, ![M, K + K']⟩ 1 [⟨⟨2, ![M, K]⟩, A⟩, ⟨⟨2, ![M, K']⟩, C⟩] hcat (ix2 p (Fin.castAdd K' k)) = A (ix2 p k) :=
  concatenate_pair_apply_left 1 A C hcat _ rfl (ix2 p k) (fun b => by
    match b with
    | ⟨0, _⟩ => rfl
    | ⟨1, _⟩ => rfl)

/-- Right of the seam they read the second block, the column counted from the seam. -/
theorem concat_right (p : Fin M) (k : Fin K') :
    concatenate ⟨2, ![M, K + K']⟩ 1 [⟨⟨2, ![M, K]⟩, A⟩, ⟨⟨2, ![M, K']⟩, C⟩] hcat (ix2 p (Fin.natAdd K k)) = C (ix2 p k) :=
  concatenate_pair_apply_right 1 A C hcat _ rfl rfl (ix2 p k) (fun b hb => by
    match b, hb with
    | ⟨0, _⟩, _ => rfl
    | ⟨1, _⟩, h => exact absurd rfl h) (by show k.val + K = K + k.val; omega)

/-- The first `K` rows of the weight. -/
theorem slice_top (k : Fin K) (q : Fin N) :
    extractStridedSlice ⟨2, ![K, N]⟩ ![0, 0] Wc hs1 (ix2 k q) = Wc (ix2 (Fin.castAdd K' k) q) :=
  extractStridedSlice_apply ![0, 0] Wc hs1 (ix2 k q) (ix2 (Fin.castAdd K' k) q) (fun a => by
    match a with
    | ⟨0, _⟩ => show k.val = 0 + k.val; omega
    | ⟨1, _⟩ => show q.val = 0 + q.val; omega)

/-- The last `K'` rows of the weight. -/
theorem slice_bot (k : Fin K') (q : Fin N) :
    extractStridedSlice ⟨2, ![K', N]⟩ ![K, 0] Wc hs2 (ix2 k q) = Wc (ix2 (Fin.natAdd K k) q) :=
  extractStridedSlice_apply ![K, 0] Wc hs2 (ix2 k q) (ix2 (Fin.natAdd K k) q) (fun a => by
    match a with
    | ⟨0, _⟩ => show K + k.val = K + k.val; rfl
    | ⟨1, _⟩ => show q.val = 0 + q.val; omega)

/-- The sum over the contraction index of the side-by-side operand against the weight splits at the seam into the two
    blocks' sums against the two row ranges of the weight. -/
theorem sum_concat (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * extractStridedSlice ⟨2, ![K, N]⟩ ![0, 0] Wc hs1 (ix2 k q))
        + (∑ k : Fin K', C (ix2 p k) * extractStridedSlice ⟨2, ![K', N]⟩ ![K, 0] Wc hs2 (ix2 k q)) := by
  rw [Fin.sum_univ_add]
  refine congrArg₂ (· + ·) (Finset.sum_congr rfl fun k _ => ?_) (Finset.sum_congr rfl fun k _ => ?_)
  · rw [concat_left, slice_top]
  · rw [concat_right, slice_bot]

end Concat

/-- The host's second layer: the side-by-side operand against the whole weight, bias, positive part — is the two-product
    layer of the two blocks against the two row ranges of the weight. -/
theorem host_concat_lin2_relu {Kt : Nat} (hK : Kt = K + K')
    (d : DotDims ⟨2, ![M, Kt]⟩ ⟨2, ![Kt, N]⟩ ⟨2, ![M, N]⟩) (hd : d = hK ▸ DotDims.plain M (K + K') N)
    (A : FVec Ideal ⟨2, ![M, K]⟩ .f32) (C : FVec Ideal ⟨2, ![M, K']⟩ .f32) (Wc : FVec Ideal ⟨2, ![Kt, N]⟩ .f32)
    (B : FVec Ideal ⟨1, ![N]⟩ .f32)
    (hcat : Shape.Concatenates [(⟨2, ![M, K]⟩ : Shape), ⟨2, ![M, K']⟩] ⟨2, ![M, Kt]⟩ 1)
    (hs1 : (⟨2, ![Kt, N]⟩ : Shape).Slices ![0, 0] ⟨2, ![K, N]⟩)
    (hs2 : (⟨2, ![Kt, N]⟩ : Shape).Slices ![K, 0] ⟨2, ![K', N]⟩)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none
          (concatenate ⟨2, ![M, Kt]⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin2 A (extractStridedSlice ⟨2, ![K, N]⟩ ![0, 0] Wc hs1) C (extractStridedSlice ⟨2, ![K', N]⟩ ![K, 0] Wc hs2) B) := by
  subst hK
  subst hd
  funext i
  obtain ⟨p, q, rfl⟩ : ∃ (p : Fin M) (q : Fin N), i = ix2 p q := ⟨i 0, i 1, eq_ix2 i⟩
  rw [maximumf_apply, addf_apply, hostZero_apply, hostRow_apply]
  refine congrArg (fun z => max (z + B (ix1 q)) 0) ?_
  exact (Cert.Lib.PlainDot.dotGeneral_apply none _ _ Wc p q).trans (sum_concat A C Wc hcat hs1 hs2 p q)

/-! ## A zero bias row -/

/-- A product plus a row of zeros is the product. -/
theorem lin_zero (X : (⟨2, ![M, K]⟩ : Shape).Idx → EReal) (W : (⟨2, ![K, N]⟩ : Shape).Idx → EReal)
    (Z : (⟨1, ![N]⟩ : Shape).Idx → EReal) (hZ : ∀ j, Z j = 0) : lin X W Z = mm X W := by
  funext i
  show (∑ k : Fin K, X (ix2 (i 0) k) * W (ix2 k (i 1))) + Z (ix1 (i 1)) = _
  rw [hZ, add_zero]
  rfl

end Cert.Lib.Dense

end
-- ==== Proof.LibRowLayers.lean ====
/-
  The two dense layers a vector unit computes on a block of rows, as whole-array functions on the extended reals.

  A block of `M` rows with `K` features, a `K × N` weight and a `1 × N` bias row give `relu (x · W + b)`: entry
  `(p, q)` is the larger of `0` and `∑ k, x (p, k) · W (k, q) + b (0, q)`. The narrowing of the operands to a shorter float
  format before the product is the identity on extended reals, the product accumulates into zero, and the bias row is
  repeated down the rows. A second product and bias on top of that, without the positive part, gives the output layer.

  An entry of either layer depends on one row of the block only, so a block of rows of a taller array computes the
  same entries as the layer of the whole array at those rows.
-/
import Idealize.ShloMosaic.Lib.ValueIdx
import Idealize.ShloMosaic.Lib.Pipeline.Value
import Idealize.ShloMosaic.PureOps.Ideal.Laws
import proofs.«153759_j50448685859076_2_alg».proof.Proof.LibDense

noncomputable section

open scoped BigOperators

namespace Cert.Lib.RowLayers

open Idealize.ShloMosaic Idealize.ShloMosaic.ValueIdx Cert.Lib.BiasDot Cert.Lib.Dense

variable {m M K N N' : Nat}

/-- A `1 × N` row read as a vector of length `N`. -/
def rowVec (R : (⟨2, ![1, N]⟩ : Shape).Idx → EReal) : (⟨1, ![N]⟩ : Shape).Idx → EReal :=
  fun j => R (ix2 (0 : Fin 1) (j 0))

/-- A vector of length `N` reshaped to a `1 × N` row and read back as a vector is the vector. -/
theorem rowVec_reshape (b : (⟨1, ![N]⟩ : Shape).Idx → EReal) (hc : (⟨1, ![N]⟩ : Shape).ShapeCasts ⟨2, ![1, N]⟩) :
    rowVec (shapeCast ⟨2, ![1, N]⟩ b hc) = b := by
  funext j
  refine (shapeCast_addUnit_apply ![N] b hc (ix2 (0 : Fin 1) (j 0))).trans (congrArg b ?_)
  funext a
  match a with
  | ⟨0, _⟩ => rfl

/-- A `1 × N` row repeated down `M` rows reads, at `(p, q)`, the row at `q`. -/
theorem rowRepeat_apply {α : Type} (R : (⟨2, ![1, N]⟩ : Shape).Idx → α)
    (hc : (⟨2, ![1, N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ R hc) hb (ix2 p q) = R (ix2 (0 : Fin 1) q) := by
  rw [shapeCast_self]
  refine broadcastTo_apply _ hb (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- The product into zero plus the repeated bias row is the linear layer of the block, the weight and the row. -/
theorem linLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr)
      = lin x0 x1 (rowVec x2) := by
  subst hd
  funext i
  obtain ⟨p, q, rfl⟩ : ∃ (p : Fin M) (q : Fin N), i = ix2 p q := ⟨i 0, i 1, eq_ix2 i⟩
  rw [addf_apply, rowRepeat_apply, Cert.Lib.PlainDot.matmul_zero_apply]
  rfl

/-- The same followed by the maximum with a splat zero is the positive part of the linear layer. -/
theorem reluLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    maximumf (addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr))
      (broadcast ⟨2, ![M, N]⟩ (Scalar.ofBits (F := Ideal) .f32 0x00000000#32))
      = relu (lin x0 x1 (rowVec x2)) := by
  rw [linLayer_eq d hd x0 x1 x2 hb0 hb1 h2 hbr]
  funext i
  rw [maximumf_apply, broadcast_apply]
  show max _ (Ideal.ofBits .f32 0x00000000#32) = _
  rw [Ideal.ofBits_zero_f32]
  rfl

/-- The first layer on a block of rows is the first layer of the whole array at those rows: entry `j` of the block's
    layer is entry `i` of the array's when the block's row `j 0` is the array's row `i 0` and the columns agree. -/
theorem layer_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    relu (lin x0 x1 (rowVec x2)) j = relu (lin A W (rowVec R)) i := by
  show max ((∑ k : Fin K, x0 (ix2 (j 0) k) * x1 (ix2 k (j 1))) + x2 (ix2 (0 : Fin 1) (j 1))) 0
    = max ((∑ k : Fin K, A (ix2 (i 0) k) * W (ix2 k (i 1))) + R (ix2 (0 : Fin 1) (i 1))) 0
  rw [h2]
  exact congrArg (fun z => max (z + R (ix2 (0 : Fin 1) (i 1))) 0) (Finset.sum_congr rfl fun k _ => by rw [h0 k, h1 k])

/-- The two layers on a block of rows are the two layers of the whole array at those rows. -/
theorem head_block (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (W : (⟨2, ![K, N]⟩ : Shape).Idx → EReal) (R : (⟨2, ![1, N]⟩ : Shape).Idx → EReal)
    (W' : (⟨2, ![N, N']⟩ : Shape).Idx → EReal) (R' : (⟨2, ![1, N']⟩ : Shape).Idx → EReal)
    (j : (⟨2, ![m, N']⟩ : Shape).Idx) (i : (⟨2, ![M, N']⟩ : Shape).Idx)
    (h0 : ∀ k : Fin K, x0 (ix2 (j 0) k) = A (ix2 (i 0) k)) (h1 : x1 = W) (h2 : x2 = R)
    (h3 : ∀ k : Fin N, x3 (ix2 k (j 1)) = W' (ix2 k (i 1)))
    (h4 : x4 (ix2 (0 : Fin 1) (j 1)) = R' (ix2 (0 : Fin 1) (i 1))) :
    lin (relu (lin x0 x1 (rowVec x2))) x3 (rowVec x4) j = lin (relu (lin A W (rowVec R))) W' (rowVec R') i := by
  subst h1
  subst h2
  show (∑ k : Fin N, relu (lin x0 x1 (rowVec x2)) (ix2 (j 0) k) * x3 (ix2 k (j 1))) + x4 (ix2 (0 : Fin 1) (j 1))
    = (∑ k : Fin N, relu (lin A x1 (rowVec x2)) (ix2 (i 0) k) * W' (ix2 k (i 1))) + R' (ix2 (0 : Fin 1) (i 1))
  rw [h4]
  refine congrArg (fun z => z + R' (ix2 (0 : Fin 1) (i 1))) (Finset.sum_congr rfl fun k _ => ?_)
  rw [h3 k]
  exact congrArg (fun z => z * W' (ix2 k (i 1)))
    (layer_block x0 x1 x2 A x1 x2 (ix2 (j 0) k) (ix2 (i 0) k) h0 (fun _ => rfl) rfl)

end Cert.Lib.RowLayers

end
-- ==== Proof.LibGnnLayers.lean ====
/-
  The layers of a degree-normalised graph network as whole-array functions on the extended reals.

  A matrix with `M` rows and `N` columns is a function of its two coordinates. A node's row is transformed by a
  dense layer whose weight is stored by OUTPUT rows (`x · Wᵀ + b`): entry `(p, q)` is `∑ k, X (p, k) · W (q, k) + b q`.
  The deeper layers take the row-wise concatenation of all earlier activations, so their weight has `256` or `384`
  columns; the sum over the concatenated axis splits at the seams into one sum of `128` terms per block
  (`dense2`, `dense3`), which needs only that addition of extended reals is associative — no finiteness.

  Around the dense part a layer scales every row by that node's factor (`scaleRows`: `H (p, q) · s p`) and joins the
  aggregated messages `A` with the dense part `L` as `A · s + s₂ · L` row by row (`combine`).

  `lin3` is the three-product companion of the two-product layer: three products with weights stored by input rows,
  added left to right, plus a bias vector.
-/
import Idealize.ShloMosaic.Lib.ValueIdx
import Idealize.ShloMosaic.PureOps.Ideal.Laws
import proofs.«153759_j50448685859076_2_alg».proof.Proof.LibRowLayers

noncomputable section

open scoped BigOperators

namespace Cert.Gnn

open Idealize.ShloMosaic Idealize.ShloMosaic.ValueIdx

variable {M K K' K'' N : Nat}

/-- An `a × b` matrix of extended reals. -/
abbrev Mat (a b : Nat) : Type := (⟨2, ![a, b]⟩ : Shape).Idx → EReal
/-- A vector of `a` extended reals. -/
abbrev Vect (a : Nat) : Type := (⟨1, ![a]⟩ : Shape).Idx → EReal

/-- Every row of `H` times that row's entry of the column `s`. -/
def scaleRows (H : Mat M N) (s : Mat M 1) : Mat M N := fun i => H i * s (ix2 (i 0) (0 : Fin 1))

/-- The aggregated messages and the dense part joined row by row: `A · s + s₂ · L`. -/
def combine (A : Mat M N) (s s2 : Mat M 1) (L : Mat M N) : Mat M N :=
  fun i => A i * s (ix2 (i 0) (0 : Fin 1)) + s2 (ix2 (i 0) (0 : Fin 1)) * L i

/-- Three products added left to right, plus a bias vector (weights stored by input rows). -/
def lin3 (A : Mat M K) (Wa : Mat K N) (C : Mat M K') (Wb : Mat K' N) (E : Mat M K'') (Wc : Mat K'' N) (B : Vect N) :
    Mat M N :=
  fun i => (((∑ k : Fin K, A (ix2 (i 0) k) * Wa (ix2 k (i 1))) + (∑ k : Fin K', C (ix2 (i 0) k) * Wb (ix2 k (i 1))))
      + (∑ k : Fin K'', E (ix2 (i 0) k) * Wc (ix2 k (i 1)))) + B (ix1 (i 1))

/-- The dense layer with its weight stored by output rows: `∑ k, X (p, k) · W (q, k) + b q`. -/
def dense1 (X : Mat M K) (W : Mat N K) (b : Vect N) : Mat M N :=
  fun i => (∑ k : Fin K, X (ix2 (i 0) k) * W (ix2 (i 1) k)) + b (ix1 (i 1))

/-- Column `k` of the first block of a 256- or 384-column weight. -/
abbrev col0 {n : Nat} (h : 128 ≤ n) (k : Fin 128) : Fin n := ⟨k.val, Nat.lt_of_lt_of_le k.isLt h⟩
/-- Column `128 + k`: the second block. -/
abbrev col1 {n : Nat} (h : 256 ≤ n) (k : Fin 128) : Fin n :=
  ⟨128 + k.val, Nat.lt_of_lt_of_le (Nat.add_lt_add_left k.isLt 128) h⟩
/-- Column `256 + k`: the third block. -/
abbrev col2 {n : Nat} (h : 384 ≤ n) (k : Fin 128) : Fin n :=
  ⟨256 + k.val, Nat.lt_of_lt_of_le (Nat.add_lt_add_left k.isLt 256) h⟩

/-- The dense layer on two blocks of 128 features against a 256-column weight stored by output rows. -/
def dense2 (X Y : Mat M 128) (W : Mat N 256) (b : Vect N) : Mat M N :=
  fun i => ((∑ k : Fin 128, X (ix2 (i 0) k) * W (ix2 (i 1) (col0 (by decide) k)))
      + (∑ k : Fin 128, Y (ix2 (i 0) k) * W (ix2 (i 1) (col1 (by decide) k)))) + b (ix1 (i 1))

/-- The dense layer on three blocks of 128 features against a 384-column weight stored by output rows. -/
def dense3 (X Y Z : Mat M 128) (W : Mat N 384) (b : Vect N) : Mat M N :=
  fun i => (((∑ k : Fin 128, X (ix2 (i 0) k) * W (ix2 (i 1) (col0 (by decide) k)))
      + (∑ k : Fin 128, Y (ix2 (i 0) k) * W (ix2 (i 1) (col1 (by decide) k))))
      + (∑ k : Fin 128, Z (ix2 (i 0) k) * W (ix2 (i 1) (col2 (by decide) k)))) + b (ix1 (i 1))

/-- A sum over 256 positions splits at 128. -/
theorem sum_split256 (f : Fin 256 → EReal) :
    (∑ k : Fin 256, f k) = (∑ k : Fin 128, f (col0 (by decide) k)) + (∑ k : Fin 128, f (col1 (by decide) k)) :=
  Fin.sum_univ_add (a := 128) (b := 128) f

/-- A sum over 384 positions splits at 128 and 256. -/
theorem sum_split384 (f : Fin 384 → EReal) :
    (∑ k : Fin 384, f k) = ((∑ k : Fin 128, f (col0 (by decide) k)) + (∑ k : Fin 128, f (col1 (by decide) k)))
      + (∑ k : Fin 128, f (col2 (by decide) k)) := by
  have h1 := Fin.sum_univ_add (a := 256) (b := 128) f
  have h2 := Fin.sum_univ_add (a := 128) (b := 128) (fun k : Fin 256 => f (Fin.castAdd 128 k))
  exact h1.trans (congrArg (· + _) h2)

end Cert.Gnn

end
-- ==== Proof.LibUnitLin.lean ====
/-
  A matrix unit's linear layers with a loaded bias row, read as whole-array functions on the extended reals.

  A product into a zero accumulator read at an entry is the plain sum of products. Two such products added, plus a
  `1 × N` bias row repeated down the `M` rows, are the two-product layer `lin2` of the four operands and the row read
  as a vector; one product plus the row is `lin`. The operands may be of any float formats. Narrowing an array to a
  shorter float format is the identity on extended reals, and the splat of the zero word is the zero array.
-/
import Idealize.ShloMosaic.Lib.ValueIdx
import Idealize.ShloMosaic.Lib.ValueLayout
import Idealize.ShloMosaic.Lib.Pipeline.Value
import Idealize.ShloMosaic.PureOps.Ideal.Laws
import proofs.«153759_j50448685859076_2_alg».proof.Proof.LibRowLayers

noncomputable section

open scoped BigOperators

namespace Cert.Lib.UnitLin

open Idealize.ShloMosaic Idealize.ShloMosaic.ValueIdx Cert.Lib.BiasDot Cert.Lib.Dense Cert.Lib.RowLayers

variable {M K K' N : Nat}

/-- Two products into zero, added, plus the repeated bias row: the two-product layer. -/
theorem unitLin2_eq {φ₁ φ₂ φ₃ φ₄ : FTy} (d1 : DotDims ⟨2, ![M, K]⟩ ⟨2, ![K, N]⟩ ⟨2, ![M, N]⟩) (hd1 : d1 = DotDims.plain M K N)
    (d2 : DotDims ⟨2, ![M, K']⟩ ⟨2, ![K', N]⟩ ⟨2, ![M, N]⟩) (hd2 : d2 = DotDims.plain M K' N)
    (X1 : FVec Ideal ⟨2, ![M, K]⟩ φ₁) (W1 : FVec Ideal ⟨2, ![K, N]⟩ φ₂) (X2 : FVec Ideal ⟨2, ![M, K']⟩ φ₃) (W2 : FVec Ideal ⟨2, ![K', N]⟩ φ₄)
    (R : FVec Ideal ⟨2, ![1, N]⟩ .f32) (hb : (⟨2, ![1, N]⟩ : Shape).Broadcasts ⟨2, ![M, N]⟩) :
    addf (addf (FloatOps.matmul d1 none X1 W1 (constant ⟨2, ![M, N]⟩ .f32 0x00000000#32))
          (FloatOps.matmul d2 none X2 W2 (constant ⟨2, ![M, N]⟩ .f32 0x00000000#32)))
        (broadcastTo ⟨2, ![M, N]⟩ R hb)
      = lin2 X1 W1 X2 W2 (rowVec R) := by
  subst hd1
  subst hd2
  funext i
  obtain ⟨p, q, rfl⟩ : ∃ (p : Fin M) (q : Fin N), i = ix2 p q := ⟨i 0, i 1, eq_ix2 i⟩
  rw [addf_apply, addf_apply, broadcastTo_1b_ab_apply, Cert.Lib.PlainDot.matmul_zero_apply, Cert.Lib.PlainDot.matmul_zero_apply]
  rfl

/-- One product into zero plus the repeated bias row: the linear layer. -/
theorem unitLin_eq {φ₁ φ₂ : FTy} (d : DotDims ⟨2, ![M, K]⟩ ⟨2, ![K, N]⟩ ⟨2, ![M, N]⟩) (hd : d = DotDims.plain M K N)
    (X : FVec Ideal ⟨2, ![M, K]⟩ φ₁) (W : FVec Ideal ⟨2, ![K, N]⟩ φ₂)
    (R : FVec Ideal ⟨2, ![1, N]⟩ .f32) (hb : (⟨2, ![1, N]⟩ : Shape).Broadcasts ⟨2, ![M, N]⟩) :
    addf (FloatOps.matmul d none X W (constant ⟨2, ![M, N]⟩ .f32 0x00000000#32)) (broadcastTo ⟨2, ![M, N]⟩ R hb)
      = lin X W (rowVec R) := by
  subst hd
  funext i
  obtain ⟨p, q, rfl⟩ : ∃ (p : Fin M) (q : Fin N), i = ix2 p q := ⟨i 0, i 1, eq_ix2 i⟩
  rw [addf_apply, broadcastTo_1b_ab_apply, Cert.Lib.PlainDot.matmul_zero_apply]
  rfl

/-- Narrowing to the shorter float format is the identity on extended reals. -/
theorem narrow_eq {s : Shape} (X : FVec Ideal s .f32) (h : FTy.bf16.bits < FTy.f32.bits) :
    ((truncf .bf16 X h : FVec Ideal s .bf16) : s.Idx → EReal) = X := rfl

/-- The splat of the zero word is zero everywhere. -/
theorem zeroSplat_eq {s : Shape} :
    (broadcast s (Scalar.ofBits (F := Ideal) .f32 0x00000000#32) : s.Idx → EReal) = fun _ => 0 := by
  funext i
  show Ideal.ofBits .f32 0x00000000#32 = 0
  exact Ideal.ofBits_zero_f32

end Cert.Lib.UnitLin

end
-- ==== Proof.LibRowBlocks.lean ====
/-
  Lemmas shared by the three regions of the network's kernel.

  A block of rows of a taller array computes, for each of the layers below, the same entries as the layer of the
  whole array at those rows: an entry of a product depends on one row of the left operand and on the whole
  weight and bias, and an entry of a row scaling depends on that row's factor only. So an entry of a layer of a
  block is the entry of the layer of the array whose row the block's row is.

  Also: a column of `a` factors repeated along `b` lanes reads, at `(p, q)`, the column at `p`.
-/
import Idealize.ShloMosaic.Lib.ValueIdx
import Idealize.ShloMosaic.Lib.ValueLayout
import Idealize.ShloMosaic.Lib.Pipeline.Value
import Idealize.ShloMosaic.PureOps.Ideal.Laws
import proofs.«153759_j50448685859076_2_alg».proof.Proof.LibGnnLayers
import proofs.«153759_j50448685859076_2_alg».proof.Proof.LibUnitLin

noncomputable section

open scoped BigOperators

namespace Cert.Gnn.Kern

open Cert.Gnn Cert.Lib.BiasDot Cert.Lib.Dense Cert.Lib.RowLayers Idealize.ShloMosaic Idealize.ShloMosaic.ValueIdx

variable {m M K K' K'' N : Nat} {α : Type}

/-- The zero offsets of a whole-buffer access, however spelt. -/
theorem hz2 : (![0, 0] : Fin 2 → Nat) = fun _ => 0 := funext fun a => by fin_cases a <;> rfl

/-- An `[a, 1]` column repeated along `b` lanes reads, at `(p, q)`, the column at `p`. -/
theorem colRepeat_apply {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A matrix times a column repeated along its lanes is the row scaling. -/
theorem mulCol_eq {a b : Nat} (H : (⟨2, ![a, b]⟩ : Shape).Idx → EReal) (s : (⟨2, ![a, 1]⟩ : Shape).Idx → EReal)
    (h : (⟨2, ![a, 1]⟩ : Shape).Broadcasts ⟨2, ![a, b]⟩) :
    (fun i => H i * broadcastTo ⟨2, ![a, b]⟩ s h i) = scaleRows H s := by
  funext i
  obtain ⟨p, q, rfl⟩ : ∃ (p : Fin a) (q : Fin b), i = ix2 p q := ⟨i 0, i 1, eq_ix2 i⟩
  rw [colRepeat_apply]
  rfl

/-- The aggregate times one column plus another column times the dense part is the row-by-row join. -/
theorem combine_eq {a b : Nat} (A L : (⟨2, ![a, b]⟩ : Shape).Idx → EReal) (s s2 : (⟨2, ![a, 1]⟩ : Shape).Idx → EReal)
    (h h' : (⟨2, ![a, 1]⟩ : Shape).Broadcasts ⟨2, ![a, b]⟩) :
    (fun i => A i * broadcastTo ⟨2, ![a, b]⟩ s h i + broadcastTo ⟨2, ![a, b]⟩ s2 h' i * L i) = combine A s s2 L := by
  funext i
  obtain ⟨p, q, rfl⟩ : ∃ (p : Fin a) (q : Fin b), i = ix2 p q := ⟨i 0, i 1, eq_ix2 i⟩
  rw [colRepeat_apply, colRepeat_apply]
  rfl

/-! ## A block of rows computes the array's entries at those rows -/

/-- The linear layer. -/
theorem lin_block (x0 : Mat m K) (x1 : Mat K N) (x2 : Mat 1 N) (A : Mat M K) (W : Mat K N) (R : Mat 1 N)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    lin x0 x1 (rowVec x2) j = lin A W (rowVec R) i := by
  show (∑ k : Fin K, x0 (ix2 (j 0) k) * x1 (ix2 k (j 1))) + x2 (ix2 (0 : Fin 1) (j 1))
    = (∑ k : Fin K, A (ix2 (i 0) k) * W (ix2 k (i 1))) + R (ix2 (0 : Fin 1) (i 1))
  rw [h2]
  exact congrArg (fun z => z + R (ix2 (0 : Fin 1) (i 1))) (Finset.sum_congr rfl fun k _ => by rw [h0 k, h1 k])

/-- The two-product layer. -/
theorem lin2_block (x0 : Mat m K) (w0 : Mat K N) (y0 : Mat m K') (w1 : Mat K' N) (x2 : Mat 1 N)
    (A : Mat M K) (Wa : Mat K N) (C : Mat M K') (Wb : Mat K' N) (R : Mat 1 N)
    (j : (⟨2, ![m, N]⟩ : Shape).Idx) (i : (⟨2, ![M, N]⟩ : Shape).Idx)
    (h0 : ∀ k : Fin K, x0 (ix2 (j 0) k) = A (ix2 (i 0) k)) (h1 : ∀ k : Fin K, w0 (ix2 k (j 1)) = Wa (ix2 k (i 1)))
    (h0' : ∀ k : Fin K', y0 (ix2 (j 0) k) = C (ix2 (i 0) k)) (h1' : ∀ k : Fin K', w1 (ix2 k (j 1)) = Wb (ix2 k (i 1)))
    (h2 : x2 (ix2 (0 : Fin 1) (j 1)) = R (ix2 (0 : Fin 1) (i 1))) :
    lin2 x0 w0 y0 w1 (rowVec x2) j = lin2 A Wa C Wb (rowVec R) i := by
  show ((∑ k : Fin K, x0 (ix2 (j 0) k) * w0 (ix2 k (j 1))) + (∑ k : Fin K', y0 (ix2 (j 0) k) * w1 (ix2 k (j 1))))
      + x2 (ix2 (0 : Fin 1) (j 1))
    = ((∑ k : Fin K, A (ix2 (i 0) k) * Wa (ix2 k (i 1))) + (∑ k : Fin K', C (ix2 (i 0) k) * Wb (ix2 k (i 1))))
      + R (ix2 (0 : Fin 1) (i 1))
  rw [h2]
  refine congrArg (fun z => z + R (ix2 (0 : Fin 1) (i 1))) (congrArg₂ (· + ·) ?_ ?_)
  · exact Finset.sum_congr rfl fun k _ => by rw [h0 k, h1 k]
  · exact Finset.sum_congr rfl fun k _ => by rw [h0' k, h1' k]

/-- The three-product layer. -/
theorem lin3_block (x0 : Mat m K) (w0 : Mat K N) (y0 : Mat m K') (w1 : Mat K' N) (z0 : Mat m K'') (w2 : Mat K'' N)
    (x2 : Mat 1 N)
    (A : Mat M K) (Wa : Mat K N) (C : Mat M K') (Wb : Mat K' N) (E : Mat M K'') (Wc : Mat K'' N) (R : Mat 1 N)
    (j : (⟨2, ![m, N]⟩ : Shape).Idx) (i : (⟨2, ![M, N]⟩ : Shape).Idx)
    (h0 : ∀ k : Fin K, x0 (ix2 (j 0) k) = A (ix2 (i 0) k)) (h1 : ∀ k : Fin K, w0 (ix2 k (j 1)) = Wa (ix2 k (i 1)))
    (h0' : ∀ k : Fin K', y0 (ix2 (j 0) k) = C (ix2 (i 0) k)) (h1' : ∀ k : Fin K', w1 (ix2 k (j 1)) = Wb (ix2 k (i 1)))
    (h0'' : ∀ k : Fin K'', z0 (ix2 (j 0) k) = E (ix2 (i 0) k))
    (h1'' : ∀ k : Fin K'', w2 (ix2 k (j 1)) = Wc (ix2 k (i 1)))
    (h2 : x2 (ix2 (0 : Fin 1) (j 1)) = R (ix2 (0 : Fin 1) (i 1))) :
    lin3 x0 w0 y0 w1 z0 w2 (rowVec x2) j = lin3 A Wa C Wb E Wc (rowVec R) i := by
  show (((∑ k : Fin K, x0 (ix2 (j 0) k) * w0 (ix2 k (j 1))) + (∑ k : Fin K', y0 (ix2 (j 0) k) * w1 (ix2 k (j 1))))
      + (∑ k : Fin K'', z0 (ix2 (j 0) k) * w2 (ix2 k (j 1)))) + x2 (ix2 (0 : Fin 1) (j 1))
    = (((∑ k : Fin K, A (ix2 (i 0) k) * Wa (ix2 k (i 1))) + (∑ k : Fin K', C (ix2 (i 0) k) * Wb (ix2 k (i 1))))
      + (∑ k : Fin K'', E (ix2 (i 0) k) * Wc (ix2 k (i 1)))) + R (ix2 (0 : Fin 1) (i 1))
  rw [h2]
  refine congrArg (fun z => z + R (ix2 (0 : Fin 1) (i 1))) (congrArg₂ (· + ·) (congrArg₂ (· + ·) ?_ ?_) ?_)
  · exact Finset.sum_congr rfl fun k _ => by rw [h0 k, h1 k]
  · exact Finset.sum_congr rfl fun k _ => by rw [h0' k, h1' k]
  · exact Finset.sum_congr rfl fun k _ => by rw [h0'' k, h1'' k]

/-- The row scaling. -/
theorem scaleRows_block (h : Mat m N) (s : Mat m 1) (H : Mat M N) (S : Mat M 1)
    (j : (⟨2, ![m, N]⟩ : Shape).Idx) (i : (⟨2, ![M, N]⟩ : Shape).Idx)
    (hh : h j = H i) (hs : s (ix2 (j 0) (0 : Fin 1)) = S (ix2 (i 0) (0 : Fin 1))) :
    scaleRows h s j = scaleRows H S i := by
  show h j * s (ix2 (j 0) (0 : Fin 1)) = H i * S (ix2 (i 0) (0 : Fin 1))
  rw [hh, hs]

/-- The row-by-row join. -/
theorem combine_block (a l : Mat m N) (s s2 : Mat m 1) (A L : Mat M N) (S S2 : Mat M 1)
    (j : (⟨2, ![m, N]⟩ : Shape).Idx) (i : (⟨2, ![M, N]⟩ : Shape).Idx)
    (ha : a j = A i) (hl : l j = L i) (hs : s (ix2 (j 0) (0 : Fin 1)) = S (ix2 (i 0) (0 : Fin 1)))
    (hs2 : s2 (ix2 (j 0) (0 : Fin 1)) = S2 (ix2 (i 0) (0 : Fin 1))) :
    combine a s s2 l j = combine A S S2 L i := by
  show a j * s (ix2 (j 0) (0 : Fin 1)) + s2 (ix2 (j 0) (0 : Fin 1)) * l j
    = A i * S (ix2 (i 0) (0 : Fin 1)) + S2 (ix2 (i 0) (0 : Fin 1)) * L i
  rw [ha, hl, hs, hs2]

/-! ## Three products into zero, added, plus the repeated bias row -/

/-- The three-product layer of a matrix unit. -/
theorem unitLin3_eq {φ₁ φ₂ φ₃ φ₄ φ₅ φ₆ : FTy}
    (d1 : DotDims ⟨2, ![M, K]⟩ ⟨2, ![K, N]⟩ ⟨2, ![M, N]⟩) (hd1 : d1 = DotDims.plain M K N)
    (d2 : DotDims ⟨2, ![M, K']⟩ ⟨2, ![K', N]⟩ ⟨2, ![M, N]⟩) (hd2 : d2 = DotDims.plain M K' N)
    (d3 : DotDims ⟨2, ![M, K'']⟩ ⟨2, ![K'', N]⟩ ⟨2, ![M, N]⟩) (hd3 : d3 = DotDims.plain M K'' N)
    (X1 : FVec Ideal ⟨2, ![M, K]⟩ φ₁) (W1 : FVec Ideal ⟨2, ![K, N]⟩ φ₂) (X2 : FVec Ideal ⟨2, ![M, K']⟩ φ₃)
    (W2 : FVec Ideal ⟨2, ![K', N]⟩ φ₄) (X3 : FVec Ideal ⟨2, ![M, K'']⟩ φ₅) (W3 : FVec Ideal ⟨2, ![K'', N]⟩ φ₆)
    (R : FVec Ideal ⟨2, ![1, N]⟩ .f32) (hb : (⟨2, ![1, N]⟩ : Shape).Broadcasts ⟨2, ![M, N]⟩) :
    addf (addf (addf (FloatOps.matmul d1 none X1 W1 (constant ⟨2, ![M, N]⟩ .f32 0x00000000#32))
            (FloatOps.matmul d2 none X2 W2 (constant ⟨2, ![M, N]⟩ .f32 0x00000000#32)))
          (FloatOps.matmul d3 none X3 W3 (constant ⟨2, ![M, N]⟩ .f32 0x00000000#32)))
        (broadcastTo ⟨2, ![M, N]⟩ R hb)
      = lin3 X1 W1 X2 W2 X3 W3 (rowVec R) := by
  subst hd1
  subst hd2
  subst hd3
  funext i
  obtain ⟨p, q, rfl⟩ : ∃ (p : Fin M) (q : Fin N), i = ix2 p q := ⟨i 0, i 1, eq_ix2 i⟩
  rw [addf_apply, addf_apply, addf_apply, broadcastTo_1b_ab_apply, Cert.Lib.PlainDot.matmul_zero_apply,
    Cert.Lib.PlainDot.matmul_zero_apply, Cert.Lib.PlainDot.matmul_zero_apply]
  rfl

end Cert.Gnn.Kern

end
-- ==== Proof.Region0.lean ====
/-
  The first region of the kernel: the linear layer of the node features, and the same scaled row by row.

  Each of the 50 grid points handles a block of 2000 rows. Its body multiplies the block of features by the whole
  128 x 128 weight (stored by input rows), adds the bias row, and stores the result; the second output is that result
  with every row multiplied by the row's factor. An entry of either output depends on one row of the features and of
  the factors only, so the block a point writes back is the block of one whole-array function: the linear layer of
  the whole feature array, and its row scaling. The 50 blocks of 2000 rows cover the 100000 rows, so the two arrays
  end holding those functions.
-/
import proofs.«153759_j50448685859076_2_alg».proof.Proof.Gen.KernelIdeal.Frame
import proofs.«153759_j50448685859076_2_alg».proof.Proof.LibGnnLayers
import proofs.«153759_j50448685859076_2_alg».proof.Proof.LibUnitLin
import proofs.«153759_j50448685859076_2_alg».proof.Proof.LibRowBlocks
import Idealize.ShloMosaic.Lib.Pipeline.Value

set_option maxRecDepth 16384

noncomputable section

open scoped BigOperators

namespace Cert.Gnn.Kern

open Cert.KernelIdeal Cert.KernelIdeal.Gen Cert.Gnn Cert.Lib.BiasDot Cert.Lib.Dense Cert.Lib.RowLayers Idealize.ShloMosaic Idealize.ShloMosaic.ValueIdx
open Idealize.ShloMosaic.TcCoe Idealize.SL.Sem
open Idealize.ShloMosaic.Pipeline (Dat)

/-! ## The body's arithmetic on one block -/

/-- The first store: the product of the block and the weight into zero, plus the bias row repeated down the rows. -/
theorem pay0_lin (x0 : Vec Ideal S2000x128 .f32) (x1 : Vec Ideal S128x128 .f32) (x2 : Vec Ideal S1x128 .f32) :
    k0_pay1 (F := Ideal) x0 x1 x2 = lin x0 x1 (rowVec x2) := by
  unfold k0_pay1
  refine (linLayer_eq _ rfl x0 (shapeCast S128x128 x1 shapeCasts_S128x128_S128x128) x2 _ _ _ _).trans ?_
  rw [shapeCast_self]

/-- The second store: the first with every row times the row's factor. -/
theorem pay0_scaled (x0 : Vec Ideal S2000x128 .f32) (x1 : Vec Ideal S128x128 .f32) (x2 : Vec Ideal S1x128 .f32)
    (x3 : Vec Ideal S2000x1 .f32) :
    k0_pay2 (F := Ideal) x0 x1 x2 x3 = scaleRows (lin x0 x1 (rowVec x2)) x3 := by
  unfold k0_pay2
  rw [pay0_lin, shapeCast_self]
  exact mulCol_eq (lin x0 x1 (rowVec x2)) x3 broadcasts_S2000x1_S2000x128

section Region

variable (V : (c : Dev nD) → (b : Ref sig .tc) → Buf (Elt Ideal) ((c : Thread nD τ).loc b)) (c : Dev nD)

/-! ## Where each window's block sits in its array -/

/-- The block index maps over the grid: the row-blocked windows are at block row `t`, the weight and the bias row at
    block zero. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The features' block at point `t` is rows `2000 t … 2000 t + 1999` of the feature array. -/
theorem blk0_feat (t : Fin cfg0.N) (y : S2000x128.Idx) (i : S100000x128.Idx)
    (h0 : (i 0).val = t.val * 2000 + (y 0).val) (h1 : (i 1).val = (y 1).val) :
    (iblk0 V c 0 t : Vec Ideal S2000x128 .f32) y = (V c main_arg0 : S100000x128.Idx → EReal) i := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- The weight's block at any point is the weight. -/
theorem blk0_weight (t : Fin cfg0.N) (y : S128x128.Idx) :
    (iblk0 V c 1 t : Vec Ideal S128x128 .f32) y = (V c main_v10 : S128x128.Idx → EReal) y := by
  obtain ⟨-, -, e0, e1, -⟩ := idx0 t
  unfold iblk0
  rw [View.read_apply]
  show V c main_v10 _ = V c main_v10 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias row's block at any point is the bias row. -/
theorem blk0_bias (t : Fin cfg0.N) (y : S1x128.Idx) :
    (iblk0 V c 2 t : Vec Ideal S1x128 .f32) y = (V c main_v11 : S1x128.Idx → EReal) y := by
  obtain ⟨-, -, -, -, e0, e1, -⟩ := idx0 t
  unfold iblk0
  rw [View.read_apply]
  show V c main_v11 _ = V c main_v11 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The factors' block at point `t` is rows `2000 t … 2000 t + 1999` of the factor column. -/
theorem blk0_norm (t : Fin cfg0.N) (y : S2000x1.Idx) (i : S100000x1.Idx)
    (h0 : (i 0).val = t.val * 2000 + (y 0).val) (h1 : (i 1).val = (y 1).val) :
    (iblk0 V c 3 t : Vec Ideal S2000x1 .f32) y = (V c main_v7 : S100000x1.Idx → EReal) i := by
  obtain ⟨-, -, -, -, -, -, e0, e1, -⟩ := idx0 t
  unfold iblk0
  rw [View.read_apply]
  show V c main_v7 _ = V c main_v7 _
  congr 1
  funext a
  apply Fin.ext
  match a with
  | ⟨0, _⟩ => show win0_3.index t (0 : Fin 2) * 2000 + 1 * (y 0).val = (i 0).val; rw [e0, h0]; omega
  | ⟨1, _⟩ => show win0_3.index t (1 : Fin 2) * 1 + 1 * (y 1).val = (i 1).val; rw [e1, h1]; omega

/-! ## What a point writes back -/

/-- The linear layer of the blocks at point `t`, at row `y` of the block, is the linear layer of the whole arrays at row
    `2000 t + y`. -/
theorem lin_blk0 (t : Fin cfg0.N) (j : S2000x128.Idx) (i : S100000x128.Idx)
    (h0 : (i 0).val = t.val * 2000 + (j 0).val) (h1 : i 1 = j 1) :
    lin (iblk0 V c 0 t) (iblk0 V c 1 t) (rowVec (iblk0 V c 2 t)) j
      = lin (V c main_arg0) (V c main_v10) (rowVec (V c main_v11)) i := by
  refine lin_block (iblk0 V c 0 t) (iblk0 V c 1 t) (iblk0 V c 2 t) (V c main_arg0) (V c main_v10) (V c main_v11) j i
    (fun k => ?_) (fun k => ?_) ?_
  · exact blk0_feat V c t _ _ h0 rfl
  · rw [h1]; exact blk0_weight V c t _
  · rw [h1]; exact blk0_bias V c t _

/-- Point `t` writes back to the first output the block at `t` of the linear layer of the whole arrays. -/
theorem flushed0_lin (t : Fin cfg0.N) :
    (dat0 (F := Ideal) V c).flushed 4 t
      = ((cfg0.win 4).blk t).view.read (Elt Ideal) (lin (V c main_arg0) (V c main_v10) (rowVec (V c main_v11))) := by
  show (cfg0.win 4).cut (grid0.coords t) ((dat0 V c).after 4 t) = _
  rw [after0_4]
  unfold out0_4
  rw [View.canon_unit_zero hz2]
  simp only [View.ld_unit_zero (S := S2000x128) hz2, View.ld_unit_zero (S := S128x128) hz2,
    View.ld_unit_zero (S := S1x128) hz2]
  rw [pay0_lin]
  obtain ⟨-, -, -, -, -, -, -, -, e0, e1, -⟩ := idx0 t
  funext j
  show lin (iblk0 V c 0 t) (iblk0 V c 1 t) (rowVec (iblk0 V c 2 t)) j
    = lin (V c main_arg0) (V c main_v10) (rowVec (V c main_v11)) (((cfg0.win 4).blk t).view.emb j)
  refine lin_blk0 V c t j _ ?_ (Fin.ext ?_)
  · show win0_4.index t (0 : Fin 2) * 2000 + 1 * (j 0).val = _; rw [e0]; omega
  · show win0_4.index t (1 : Fin 2) * 128 + 1 * (j 1).val = _; rw [e1]; omega

/-- Point `t` writes back to the second output the block at `t` of the row scaling of that layer. -/
theorem flushed0_scaled (t : Fin cfg0.N) :
    (dat0 (F := Ideal) V c).flushed 5 t
      = ((cfg0.win 5).blk t).view.read (Elt Ideal)
          (scaleRows (lin (V c main_arg0) (V c main_v10) (rowVec (V c main_v11))) (V c main_v7)) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x128) hz2,
    View.ld_unit_zero (S := S1x128) hz2, View.ld_unit_zero (S := S2000x1) hz2]
  rw [pay0_scaled]
  obtain ⟨-, -, -, -, -, -, -, -, -, -, e0, e1⟩ := idx0 t
  funext j
  show scaleRows (lin (iblk0 V c 0 t) (iblk0 V c 1 t) (rowVec (iblk0 V c 2 t))) (iblk0 V c 3 t) j
    = scaleRows (lin (V c main_arg0) (V c main_v10) (rowVec (V c main_v11))) (V c main_v7)
        (((cfg0.win 5).blk t).view.emb j)
  have r0 : ((((cfg0.win 5).blk t).view.emb j) 0).val = t.val * 2000 + (j 0).val := by
    show win0_5.index t (0 : Fin 2) * 2000 + 1 * (j 0).val = _; rw [e0]; omega
  have r1 : ((((cfg0.win 5).blk t).view.emb j) 1).val = (j 1).val := by
    show win0_5.index t (1 : Fin 2) * 128 + 1 * (j 1).val = _; rw [e1]; omega
  refine scaleRows_block _ (iblk0 V c 3 t) _ (V c main_v7) j (((cfg0.win 5).blk t).view.emb j) ?_ ?_
  · exact lin_blk0 V c t j _ r0 (Fin.ext r1)
  · exact blk0_norm V c t _ _ r0 rfl

/-! ## The blocks cover the arrays -/

/-- An index of the first output is in point `t`'s block iff each coordinate is in the block's range on its axis. -/
theorem mem_blk0_4 (t : Fin cfg0.N) (i : S100000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v12_0).slice (win0_4.rect t)).set ↔ _
  rw [View.set_slice_whole, Rect.mem_set_unit]
  exact Iff.rfl

/-- The same for the second output. -/
theorem mem_blk0_5 (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v12_1).slice (win0_5.rect t)).set ↔ _
  rw [View.set_slice_whole, Rect.mem_set_unit]
  exact Iff.rfl

/-- Row `r` of the first output is in the block of point `r / 2000`. -/
theorem rows_cover0_4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, -, -, -, -, e0, e1, -⟩ := idx0 ⟨(i 0).val / 2000, ht⟩
  refine ⟨⟨(i 0).val / 2000, ht⟩, flush0_4 _, ?_⟩
  rw [mem_blk0_4]
  intro a
  match a with
  | ⟨0, _⟩ =>
    show win0_4.index ⟨(i 0).val / 2000, ht⟩ (0 : Fin 2) * 2000 ≤ (i 0).val
      ∧ (i 0).val < win0_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_4.index ⟨(i 0).val / 2000, ht⟩ (1 : Fin 2) * 128 ≤ (i 1).val
      ∧ (i 1).val < win0_4.index ⟨(i 0).val / 2000, ht⟩ (1 : Fin 2) * 128 + 128
    rw [e1]; omega

/-- Row `r` of the second output is in the block of point `r / 2000`. -/
theorem rows_cover0_5 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, -, -, -, -, -, -, e0, e1⟩ := idx0 ⟨(i 0).val / 2000, ht⟩
  refine ⟨⟨(i 0).val / 2000, ht⟩, flush0_5 _, ?_⟩
  rw [mem_blk0_5]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val
      ∧ (i 1).val < win0_5.index ⟨(i 0).val / 2000, ht⟩ (1 : Fin 2) * 128 + 128
    rw [e1]; omega

/-! ## The arrays after the region -/

/-- The first output ends holding the linear layer of the feature array, the weight and the bias row. -/
theorem arr0_4 : (dat0 (F := Ideal) V c).arrAt 4 cfg0.N
    = lin (V c main_arg0) (V c main_v10) (rowVec (V c main_v11)) :=
  (dat0 V c).arrAt_eq_of_cover 4 (lin (V c main_arg0) (V c main_v10) (rowVec (V c main_v11)))
    (fun t _ => flushed0_lin V c t) rows_cover0_4

/-- The second output ends holding that layer with every row times the row's factor. -/
theorem arr0_5 : (dat0 (F := Ideal) V c).arrAt 5 cfg0.N
    = scaleRows (lin (V c main_arg0) (V c main_v10) (rowVec (V c main_v11))) (V c main_v7) :=
  (dat0 V c).arrAt_eq_of_cover 5
    (scaleRows (lin (V c main_arg0) (V c main_v10) (rowVec (V c main_v11))) (V c main_v7))
    (fun t _ => flushed0_scaled V c t) rows_cover0_5

end Region

end Cert.Gnn.Kern

end
-- ==== Proof.Region1.lean ====
/-
  The second region of the kernel: the layer that joins the aggregated messages with a two-product dense part.

  Each of the 50 grid points handles a block of 2000 rows. Its body multiplies the block of features and the block of
  the first layer's activations by their two 128 x 128 weights (stored by input rows), adds the two products and the
  bias row, scales that dense part row by row by the second factor, and adds the block of aggregated messages scaled
  row by row by the first factor; the second output is that result with every row multiplied by the first factor
  again. An entry of either output depends on one row of each row-blocked input only, so the block a point writes
  back is the block of one whole-array function, and the 50 blocks of 2000 rows cover the 100000 rows.
-/
import proofs.«153759_j50448685859076_2_alg».proof.Proof.Gen.KernelIdeal.Frame
import proofs.«153759_j50448685859076_2_alg».proof.Proof.LibGnnLayers
import proofs.«153759_j50448685859076_2_alg».proof.Proof.LibUnitLin
import proofs.«153759_j50448685859076_2_alg».proof.Proof.LibRowBlocks
import Idealize.ShloMosaic.Lib.Pipeline.Value

set_option maxRecDepth 16384

noncomputable section

open scoped BigOperators

namespace Cert.Gnn.Kern

open Cert.KernelIdeal Cert.KernelIdeal.Gen Cert.Gnn Cert.Lib.BiasDot Cert.Lib.Dense Cert.Lib.RowLayers Idealize.ShloMosaic Idealize.ShloMosaic.ValueIdx
open Idealize.ShloMosaic.TcCoe Idealize.SL.Sem
open Idealize.ShloMosaic.Pipeline (Dat)

/-! ## The body's arithmetic on one block -/

/-- The first store: the messages times the first factor plus the second factor times the two-product layer. -/
theorem pay1_comb (v0 v2 : Vec Ideal S2000x128 .f32) (v5 v8 : Vec Ideal S128x128 .f32) (v14 : Vec Ideal S1x128 .f32)
    (v18 : Vec Ideal S2000x128 .f32) (v20 v24 : Vec Ideal S2000x1 .f32) :
    k1_pay1 (F := Ideal) v0 v2 v5 v8 v14 v18 v20 v24 = combine v18 v20 v24 (lin2 v0 v5 v2 v8 (rowVec v14)) := by
  unfold k1_pay1
  simp only [shapeCast_self]
  refine Eq.trans ?_ (combine_eq v18 (lin2 v0 v5 v2 v8 (rowVec v14)) v20 v24 broadcasts_S2000x1_S2000x128
    broadcasts_S2000x1_S2000x128)
  exact congrArg (fun L : FVec Ideal S2000x128 .f32 =>
      addf (mulf v18 (broadcastTo S2000x128 v20 broadcasts_S2000x1_S2000x128))
        (mulf (broadcastTo S2000x128 v24 broadcasts_S2000x1_S2000x128) L))
    (Cert.Lib.UnitLin.unitLin2_eq _ rfl _ rfl (truncf .bf16 v0 bitsLt_bf16_f32) (truncf .bf16 v5 bitsLt_bf16_f32)
      (truncf .bf16 v2 bitsLt_bf16_f32) (truncf .bf16 v8 bitsLt_bf16_f32) v14 broadcasts_S1x128_S2000x128)

/-- The second store: the first with every row times the row's factor. -/
theorem pay1_scaled (v0 v2 : Vec Ideal S2000x128 .f32) (v5 v8 : Vec Ideal S128x128 .f32) (v14 : Vec Ideal S1x128 .f32)
    (v18 : Vec Ideal S2000x128 .f32) (v20 v24 v30 : Vec Ideal S2000x1 .f32) :
    k1_pay2 (F := Ideal) v0 v2 v5 v8 v14 v18 v20 v24 v30
      = scaleRows (combine v18 v20 v24 (lin2 v0 v5 v2 v8 (rowVec v14))) v30 := by
  unfold k1_pay2
  rw [pay1_comb, shapeCast_self]
  exact mulCol_eq _ v30 broadcasts_S2000x1_S2000x128

section Region

variable (V : (c : Dev nD) → (b : Ref sig .tc) → Buf (Elt Ideal) ((c : Thread nD τ).loc b)) (c : Dev nD)

/-! ## Where each window's block sits in its array -/

/-- Window 0's block index at point `t` is `(t, 0)`. -/
theorem idx1_0 : ∀ t : Fin cfg1.N, win1_0.index t (0 : Fin 2) = t.val ∧ win1_0.index t (1 : Fin 2) = 0 :=
  (by decide +kernel : ∀ t : Fin grid1.N, _)
/-- Window 1's block index at point `t` is `(t, 0)`. -/
theorem idx1_1 : ∀ t : Fin cfg1.N, win1_1.index t (0 : Fin 2) = t.val ∧ win1_1.index t (1 : Fin 2) = 0 :=
  (by decide +kernel : ∀ t : Fin grid1.N, _)
/-- Window 2's block index at point `t` is `(t, 0)`. -/
theorem idx1_2 : ∀ t : Fin cfg1.N, win1_2.index t (0 : Fin 2) = t.val ∧ win1_2.index t (1 : Fin 2) = 0 :=
  (by decide +kernel : ∀ t : Fin grid1.N, _)
/-- Window 3's block index at point `t` is `(t, 0)`. -/
theorem idx1_3 : ∀ t : Fin cfg1.N, win1_3.index t (0 : Fin 2) = t.val ∧ win1_3.index t (1 : Fin 2) = 0 :=
  (by decide +kernel : ∀ t : Fin grid1.N, _)
/-- Window 4's block index at point `t` is `(t, 0)`. -/
theorem idx1_4 : ∀ t : Fin cfg1.N, win1_4.index t (0 : Fin 2) = t.val ∧ win1_4.index t (1 : Fin 2) = 0 :=
  (by decide +kernel : ∀ t : Fin grid1.N, _)
/-- Window 8's block index at point `t` is `(t, 0)`. -/
theorem idx1_8 : ∀ t : Fin cfg1.N, win1_8.index t (0 : Fin 2) = t.val ∧ win1_8.index t (1 : Fin 2) = 0 :=
  (by decide +kernel : ∀ t : Fin grid1.N, _)
/-- Window 9's block index at point `t` is `(t, 0)`. -/
theorem idx1_9 : ∀ t : Fin cfg1.N, win1_9.index t (0 : Fin 2) = t.val ∧ win1_9.index t (1 : Fin 2) = 0 :=
  (by decide +kernel : ∀ t : Fin grid1.N, _)
/-- Window 5's block index at every point is `(0, 0)`. -/
theorem idx1_5 : ∀ t : Fin cfg1.N, win1_5.index t (0 : Fin 2) = 0 ∧ win1_5.index t (1 : Fin 2) = 0 :=
  (by decide +kernel : ∀ t : Fin grid1.N, _)
/-- Window 6's block index at every point is `(0, 0)`. -/
theorem idx1_6 : ∀ t : Fin cfg1.N, win1_6.index t (0 : Fin 2) = 0 ∧ win1_6.index t (1 : Fin 2) = 0 :=
  (by decide +kernel : ∀ t : Fin grid1.N, _)
/-- Window 7's block index at every point is `(0, 0)`. -/
theorem idx1_7 : ∀ t : Fin cfg1.N, win1_7.index t (0 : Fin 2) = 0 ∧ win1_7.index t (1 : Fin 2) = 0 :=
  (by decide +kernel : ∀ t : Fin grid1.N, _)

/-- The features: its block at point `t` is rows `2000 t … 2000 t + 1999` of the array. -/
theorem blk1_0 (t : Fin cfg1.N) (y : S2000x128.Idx) (i : S100000x128.Idx)
    (h0 : (i 0).val = t.val * 2000 + (y 0).val) (h1 : (i 1).val = (y 1).val) :
    (iblk1 V c 0 t : Vec Ideal S2000x128 .f32) y = (V c main_arg0 : S100000x128.Idx → EReal) i := by
  have e := idx1_0 t
  unfold iblk1
  rw [View.read_apply]
  show V c main_arg0 _ = V c main_arg0 _
  congr 1
  funext a
  apply Fin.ext
  match a with
  | ⟨0, _⟩ => show win1_0.index t (0 : Fin 2) * 2000 + 1 * (y 0).val = (i 0).val; rw [e.1, h0]; omega
  | ⟨1, _⟩ => show win1_0.index t (1 : Fin 2) * 128 + 1 * (y 1).val = (i 1).val; rw [e.2, h1]; omega

/-- The first layer's activations: its block at point `t` is rows `2000 t … 2000 t + 1999` of the array. -/
theorem blk1_1 (t : Fin cfg1.N) (y : S2000x128.Idx) (i : S100000x128.Idx)
    (h0 : (i 0).val = t.val * 2000 + (y 0).val) (h1 : (i 1).val = (y 1).val) :
    (iblk1 V c 1 t : Vec Ideal S2000x128 .f32) y = (V c main_v12_0 : S100000x128.Idx → EReal) i := by
  have e := idx1_1 t
  unfold iblk1
  rw [View.read_apply]
  show V c main_v12_0 _ = V c main_v12_0 _
  congr 1
  funext a
  apply Fin.ext
  match a with
  | ⟨0, _⟩ => show win1_1.index t (0 : Fin 2) * 2000 + 1 * (y 0).val = (i 0).val; rw [e.1, h0]; omega
  | ⟨1, _⟩ => show win1_1.index t (1 : Fin 2) * 128 + 1 * (y 1).val = (i 1).val; rw [e.2, h1]; omega

/-- The aggregated messages: its block at point `t` is rows `2000 t … 2000 t + 1999` of the array. -/
theorem blk1_2 (t : Fin cfg1.N) (y : S2000x128.Idx) (i : S100000x128.Idx)
    (h0 : (i 0).val = t.val * 2000 + (y 0).val) (h1 : (i 1).val = (y 1).val) :
    (iblk1 V c 2 t : Vec Ideal S2000x128 .f32) y = (V c main_v22 : S100000x128.Idx → EReal) i := by
  have e := idx1_2 t
  unfold iblk1
  rw [View.read_apply]
  show V c main_v22 _ = V c main_v22 _
  congr 1
  funext a
  apply Fin.ext
  match a with
  | ⟨0, _⟩ => show win1_2.index t (0 : Fin 2) * 2000 + 1 * (y 0).val = (i 0).val; rw [e.1, h0]; omega
  | ⟨1, _⟩ => show win1_2.index t (1 : Fin 2) * 128 + 1 * (y 1).val = (i 1).val; rw [e.2, h1]; omega

/-- The first factor: its block at point `t` is rows `2000 t … 2000 t + 1999` of the array. -/
theorem blk1_3 (t : Fin cfg1.N) (y : S2000x1.Idx) (i : S100000x1.Idx)
    (h0 : (i 0).val = t.val * 2000 + (y 0).val) (h1 : (i 1).val = (y 1).val) :
    (iblk1 V c 3 t : Vec Ideal S2000x1 .f32) y = (V c main_v7 : S100000x1.Idx → EReal) i := by
  have e := idx1_3 t
  unfold iblk1
  rw [View.read_apply]
  show V c main_v7 _ = V c main_v7 _
  congr 1
  funext a
  apply Fin.ext
  match a with
  | ⟨0, _⟩ => show win1_3.index t (0 : Fin 2) * 2000 + 1 * (y 0).val = (i 0).val; rw [e.1, h0]; omega
  | ⟨1, _⟩ => show win1_3.index t (1 : Fin 2) * 1 + 1 * (y 1).val = (i 1).val; rw [e.2, h1]; omega

/-- The second factor: its block at point `t` is rows `2000 t … 2000 t + 1999` of the array. -/
theorem blk1_4 (t : Fin cfg1.N) (y : S2000x1.Idx) (i : S100000x1.Idx)
    (h0 : (i 0).val = t.val * 2000 + (y 0).val) (h1 : (i 1).val = (y 1).val) :
    (iblk1 V c 4 t : Vec Ideal S2000x1 .f32) y = (V c main_v9 : S100000x1.Idx → EReal) i := by
  have e := idx1_4 t
  unfold iblk1
  rw [View.read_apply]
  show V c main_v9 _ = V c main_v9 _
  congr 1
  funext a
  apply Fin.ext
  match a with
  | ⟨0, _⟩ => show win1_4.index t (0 : Fin 2) * 2000 + 1 * (y 0).val = (i 0).val; rw [e.1, h0]; omega
  | ⟨1, _⟩ => show win1_4.index t (1 : Fin 2) * 1 + 1 * (y 1).val = (i 1).val; rw [e.2, h1]; omega

/-- The features' weight: its block at any point is the whole array. -/
theorem blk1_5 (t : Fin cfg1.N) (y : S128x128.Idx) :
    (iblk1 V c 5 t : Vec Ideal S128x128 .f32) y = (V c main_v24 : S128x128.Idx → EReal) y := by
  have e := idx1_5 t
  unfold iblk1
  rw [View.read_apply]
  show V c main_v24 _ = V c main_v24 _
  congr 1
  funext a
  apply Fin.ext
  match a with
  | ⟨0, _⟩ => show win1_5.index t (0 : Fin 2) * 128 + 1 * (y 0).val = (y 0).val; rw [e.1]; omega
  | ⟨1, _⟩ => show win1_5.index t (1 : Fin 2) * 128 + 1 * (y 1).val = (y 1).val; rw [e.2]; omega

/-- The activations' weight: its block at any point is the whole array. -/
theorem blk1_6 (t : Fin cfg1.N) (y : S128x128.Idx) :
    (iblk1 V c 6 t : Vec Ideal S128x128 .f32) y = (V c main_v26 : S128x128.Idx → EReal) y := by
  have e := idx1_6 t
  unfold iblk1
  rw [View.read_apply]
  show V c main_v26 _ = V c main_v26 _
  congr 1
  funext a
  apply Fin.ext
  match a with
  | ⟨0, _⟩ => show win1_6.index t (0 : Fin 2) * 128 + 1 * (y 0).val = (y 0).val; rw [e.1]; omega
  | ⟨1, _⟩ => show win1_6.index t (1 : Fin 2) * 128 + 1 * (y 1).val = (y 1).val; rw [e.2]; omega

/-- The bias row: its block at any point is the whole array. -/
theorem blk1_7 (t : Fin cfg1.N) (y : S1x128.Idx) :
    (iblk1 V c 7 t : Vec Ideal S1x128 .f32) y = (V c main_v27 : S1x128.Idx → EReal) y := by
  have e := idx1_7 t
  unfold iblk1
  rw [View.read_apply]
  show V c main_v27 _ = V c main_v27 _
  congr 1
  funext a
  apply Fin.ext
  match a with
  | ⟨0, _⟩ => show win1_7.index t (0 : Fin 2) * 1 + 1 * (y 0).val = (y 0).val; rw [e.1]; omega
  | ⟨1, _⟩ => show win1_7.index t (1 : Fin 2) * 128 + 1 * (y 1).val = (y 1).val; rw [e.2]; omega

/-! ## What a point writes back -/

/-- The two-product layer of the blocks at point `t`, at row `y` of the block, is the two-product layer of the whole
    arrays at row `2000 t + y`. -/
theorem lin2_blk1 (t : Fin cfg1.N) (j : S2000x128.Idx) (i : S100000x128.Idx)
    (h0 : (i 0).val = t.val * 2000 + (j 0).val) (h1 : i 1 = j 1) :
    lin2 (iblk1 V c 0 t) (iblk1 V c 5 t) (iblk1 V c 1 t) (iblk1 V c 6 t) (rowVec (iblk1 V c 7 t)) j
      = lin2 (V c main_arg0) (V c main_v24) (V c main_v12_0) (V c main_v26) (rowVec (V c main_v27)) i := by
  refine lin2_block (iblk1 V c 0 t) (iblk1 V c 5 t) (iblk1 V c 1 t) (iblk1 V c 6 t) (iblk1 V c 7 t)
    (V c main_arg0) (V c main_v24) (V c main_v12_0) (V c main_v26) (V c main_v27) j i
    (fun k => ?_) (fun k => ?_) (fun k => ?_) (fun k => ?_) ?_
  · exact blk1_0 V c t _ _ h0 rfl
  · rw [h1]; exact blk1_5 V c t _
  · exact blk1_1 V c t _ _ h0 rfl
  · rw [h1]; exact blk1_6 V c t _
  · rw [h1]; exact blk1_7 V c t _

/-- The join of the blocks at point `t`, at row `y` of the block, is the join of the whole arrays at row `2000 t + y`. -/
theorem comb_blk1 (t : Fin cfg1.N) (j : S2000x128.Idx) (i : S100000x128.Idx)
    (h0 : (i 0).val = t.val * 2000 + (j 0).val) (h1 : i 1 = j 1) :
    combine (iblk1 V c 2 t) (iblk1 V c 3 t) (iblk1 V c 4 t)
        (lin2 (iblk1 V c 0 t) (iblk1 V c 5 t) (iblk1 V c 1 t) (iblk1 V c 6 t) (rowVec (iblk1 V c 7 t))) j
      = combine (V c main_v22) (V c main_v7) (V c main_v9)
        (lin2 (V c main_arg0) (V c main_v24) (V c main_v12_0) (V c main_v26) (rowVec (V c main_v27))) i := by
  refine combine_block (iblk1 V c 2 t) _ (iblk1 V c 3 t) (iblk1 V c 4 t) (V c main_v22) _ (V c main_v7) (V c main_v9)
    j i ?_ ?_ ?_ ?_
  · exact blk1_2 V c t j i h0 (congrArg Fin.val h1)
  · exact lin2_blk1 V c t j i h0 h1
  · exact blk1_3 V c t _ _ h0 rfl
  · exact blk1_4 V c t _ _ h0 rfl

/-- Point `t` writes back to the first output the block at `t` of the join of the whole arrays. -/
theorem flushed1_comb (t : Fin cfg1.N) :
    (dat1 (F := Ideal) V c).flushed 8 t
      = ((cfg1.win 8).blk t).view.read (Elt Ideal)
          (combine (V c main_v22) (V c main_v7) (V c main_v9)
        (lin2 (V c main_arg0) (V c main_v24) (V c main_v12_0) (V c main_v26) (rowVec (V c main_v27)))) := by
  show (cfg1.win 8).cut (grid1.coords t) ((dat1 V c).after 8 t) = _
  rw [after1_8]
  unfold out1_8
  rw [View.canon_unit_zero hz2]
  simp only [View.ld_unit_zero (S := S2000x128) hz2, View.ld_unit_zero (S := S128x128) hz2,
    View.ld_unit_zero (S := S1x128) hz2, View.ld_unit_zero (S := S2000x1) hz2]
  rw [pay1_comb]
  have e := idx1_8 t
  funext j
  show combine (iblk1 V c 2 t) (iblk1 V c 3 t) (iblk1 V c 4 t)
        (lin2 (iblk1 V c 0 t) (iblk1 V c 5 t) (iblk1 V c 1 t) (iblk1 V c 6 t) (rowVec (iblk1 V c 7 t))) j
    = combine (V c main_v22) (V c main_v7) (V c main_v9)
        (lin2 (V c main_arg0) (V c main_v24) (V c main_v12_0) (V c main_v26) (rowVec (V c main_v27)))
        (((cfg1.win 8).blk t).view.emb j)
  refine comb_blk1 V c t j _ ?_ (Fin.ext ?_)
  · show win1_8.index t (0 : Fin 2) * 2000 + 1 * (j 0).val = _; rw [e.1]; omega
  · show win1_8.index t (1 : Fin 2) * 128 + 1 * (j 1).val = _; rw [e.2]; omega

/-- Point `t` writes back to the second output the block at `t` of the row scaling of that join. -/
theorem flushed1_scaled (t : Fin cfg1.N) :
    (dat1 (F := Ideal) V c).flushed 9 t
      = ((cfg1.win 9).blk t).view.read (Elt Ideal)
          (scaleRows (combine (V c main_v22) (V c main_v7) (V c main_v9)
        (lin2 (V c main_arg0) (V c main_v24) (V c main_v12_0) (V c main_v26) (rowVec (V c main_v27)))) (V c main_v7)) := by
  show (cfg1.win 9).cut (grid1.coords t) ((dat1 V c).after 9 t) = _
  rw [after1_9]
  unfold out1_9
  rw [View.canon_unit_zero hz2]
  simp only [View.ld_unit_zero (S := S2000x128) hz2, View.ld_unit_zero (S := S128x128) hz2,
    View.ld_unit_zero (S := S1x128) hz2, View.ld_unit_zero (S := S2000x1) hz2]
  rw [pay1_scaled]
  have e := idx1_9 t
  funext j
  show scaleRows (combine (iblk1 V c 2 t) (iblk1 V c 3 t) (iblk1 V c 4 t)
        (lin2 (iblk1 V c 0 t) (iblk1 V c 5 t) (iblk1 V c 1 t) (iblk1 V c 6 t) (rowVec (iblk1 V c 7 t)))) (iblk1 V c 3 t) j
    = scaleRows (combine (V c main_v22) (V c main_v7) (V c main_v9)
        (lin2 (V c main_arg0) (V c main_v24) (V c main_v12_0) (V c main_v26) (rowVec (V c main_v27)))) (V c main_v7)
        (((cfg1.win 9).blk t).view.emb j)
  have r0 : ((((cfg1.win 9).blk t).view.emb j) 0).val = t.val * 2000 + (j 0).val := by
    show win1_9.index t (0 : Fin 2) * 2000 + 1 * (j 0).val = _; rw [e.1]; omega
  have r1 : ((((cfg1.win 9).blk t).view.emb j) 1).val = (j 1).val := by
    show win1_9.index t (1 : Fin 2) * 128 + 1 * (j 1).val = _; rw [e.2]; omega
  refine scaleRows_block _ (iblk1 V c 3 t) _ (V c main_v7) j (((cfg1.win 9).blk t).view.emb j) ?_ ?_
  · exact comb_blk1 V c t j _ r0 (Fin.ext r1)
  · exact blk1_3 V c t _ _ r0 rfl

/-! ## The blocks cover the arrays -/

/-- An index of the first output is in point `t`'s block iff each coordinate is in the block's range on its axis. -/
theorem mem_blk1_8 (t : Fin cfg1.N) (i : S100000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v28_0).slice (win1_8.rect t)).set ↔ _
  rw [View.set_slice_whole, Rect.mem_set_unit]
  exact Iff.rfl

/-- Row `r` of the first output is in the block of point `r / 2000`. -/
theorem rows_cover1_8 (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  have hN : cfg1.N = 50 := N_1
  have ht : (i 0).val / 2000 < cfg1.N := by rw [hN]; omega
  have e := idx1_8 ⟨(i 0).val / 2000, ht⟩
  refine ⟨⟨(i 0).val / 2000, ht⟩, flush1_8 _, ?_⟩
  rw [mem_blk1_8]
  intro a
  match a with
  | ⟨0, _⟩ =>
    show win1_8.index ⟨(i 0).val / 2000, ht⟩ (0 : Fin 2) * 2000 ≤ (i 0).val
      ∧ (i 0).val < win1_8.index ⟨(i 0).val / 2000, ht⟩ (0 : Fin 2) * 2000 + 2000
    rw [e.1]; show (i 0).val / 2000 * 2000 ≤ (i 0).val ∧ (i 0).val < (i 0).val / 2000 * 2000 + 2000; omega
  | ⟨1, _⟩ =>
    show win1_8.index ⟨(i 0).val / 2000, ht⟩ (1 : Fin 2) * 128 ≤ (i 1).val
      ∧ (i 1).val < win1_8.index ⟨(i 0).val / 2000, ht⟩ (1 : Fin 2) * 128 + 128
    rw [e.2]; omega

/-- An index of the second output is in point `t`'s block iff each coordinate is in the block's range on its axis. -/
theorem mem_blk1_9 (t : Fin cfg1.N) (i : S100000x128.Idx) :
    i ∈ ((cfg1.win 9).blk t).view.set ↔ ∀ a : Fin 2, win1_9.index t a * S2000x128.size a ≤ (i a).val
      ∧ (i a).val < win1_9.index t a * S2000x128.size a + S2000x128.size a := by
  show i ∈ ((View.whole main_v28_1).slice (win1_9.rect t)).set ↔ _
  rw [View.set_slice_whole, Rect.mem_set_unit]
  exact Iff.rfl

/-- Row `r` of the second output is in the block of point `r / 2000`. -/
theorem rows_cover1_9 (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  have hN : cfg1.N = 50 := N_1
  have ht : (i 0).val / 2000 < cfg1.N := by rw [hN]; omega
  have e := idx1_9 ⟨(i 0).val / 2000, ht⟩
  refine ⟨⟨(i 0).val / 2000, ht⟩, flush1_9 _, ?_⟩
  rw [mem_blk1_9]
  intro a
  match a with
  | ⟨0, _⟩ =>
    show win1_9.index ⟨(i 0).val / 2000, ht⟩ (0 : Fin 2) * 2000 ≤ (i 0).val
      ∧ (i 0).val < win1_9.index ⟨(i 0).val / 2000, ht⟩ (0 : Fin 2) * 2000 + 2000
    rw [e.1]; show (i 0).val / 2000 * 2000 ≤ (i 0).val ∧ (i 0).val < (i 0).val / 2000 * 2000 + 2000; omega
  | ⟨1, _⟩ =>
    show win1_9.index ⟨(i 0).val / 2000, ht⟩ (1 : Fin 2) * 128 ≤ (i 1).val
      ∧ (i 1).val < win1_9.index ⟨(i 0).val / 2000, ht⟩ (1 : Fin 2) * 128 + 128
    rw [e.2]; omega

/-! ## The arrays after the region -/

/-- The first output ends holding the join of the aggregated messages with the two-product layer. -/
theorem arr1_8 : (dat1 (F := Ideal) V c).arrAt 8 cfg1.N
    = combine (V c main_v22) (V c main_v7) (V c main_v9)
        (lin2 (V c main_arg0) (V c main_v24) (V c main_v12_0) (V c main_v26) (rowVec (V c main_v27))) :=
  (dat1 V c).arrAt_eq_of_cover 8
    (combine (V c main_v22) (V c main_v7) (V c main_v9)
        (lin2 (V c main_arg0) (V c main_v24) (V c main_v12_0) (V c main_v26) (rowVec (V c main_v27))))
    (fun t _ => flushed1_comb V c t) rows_cover1_8

/-- The second output ends holding that join with every row times the first factor. -/
theorem arr1_9 : (dat1 (F := Ideal) V c).arrAt 9 cfg1.N
    = scaleRows (combine (V c main_v22) (V c main_v7) (V c main_v9)
        (lin2 (V c main_arg0) (V c main_v24) (V c main_v12_0) (V c main_v26) (rowVec (V c main_v27)))) (V c main_v7) :=
  (dat1 V c).arrAt_eq_of_cover 9
    (scaleRows (combine (V c main_v22) (V c main_v7) (V c main_v9)
        (lin2 (V c main_arg0) (V c main_v24) (V c main_v12_0) (V c main_v26) (rowVec (V c main_v27)))) (V c main_v7))
    (fun t _ => flushed1_scaled V c t) rows_cover1_9

end Region

end Cert.Gnn.Kern

end
-- ==== Proof.Region2.lean ====
/-
  The third region of the kernel: the last activation of the network.

  Each of the 50 grid points handles a block of 2000 rows. Its body multiplies the block of features and the blocks
  of the two earlier activations by three whole 128 x 128 weights (stored by input rows), adds the three products
  left to right and then the bias row, scales every row of that by the row's second factor, and adds the block of
  aggregated messages with every row scaled by the row's first factor. An entry of the output depends on one row of
  the row-blocked operands only, so the block a point writes back is the block of one whole-array function: the
  row-by-row join of the aggregated messages with the three-product layer of the whole arrays. The 50 blocks of
  2000 rows cover the 100000 rows, so the output array ends holding that function.
-/
import proofs.«153759_j50448685859076_2_alg».proof.Proof.Gen.KernelIdeal.Frame
import proofs.«153759_j50448685859076_2_alg».proof.Proof.LibGnnLayers
import proofs.«153759_j50448685859076_2_alg».proof.Proof.LibUnitLin
import proofs.«153759_j50448685859076_2_alg».proof.Proof.LibRowBlocks
import Idealize.ShloMosaic.Lib.Pipeline.Value

set_option maxRecDepth 16384

noncomputable section

open scoped BigOperators

namespace Cert.Gnn.Kern

open Cert.KernelIdeal Cert.KernelIdeal.Gen Cert.Gnn Cert.Lib.BiasDot Cert.Lib.Dense Cert.Lib.RowLayers Idealize.ShloMosaic Idealize.ShloMosaic.ValueIdx
open Idealize.ShloMosaic.TcCoe Idealize.SL.Sem
open Idealize.ShloMosaic.Pipeline (Dat)

/-! ## The body's arithmetic on one block -/

/-- The store: the aggregated block scaled by the first factor, plus the second factor times the three-product
    layer of the three blocks, the three weights and the bias row. -/
theorem pay2_combine (x0 x1 x2 x3 : Vec Ideal S2000x128 .f32) (x4 x5 : Vec Ideal S2000x1 .f32)
    (x6 x7 x8 : Vec Ideal S128x128 .f32) (x9 : Vec Ideal S1x128 .f32) :
    k2_pay1 (F := Ideal) (k2_pay2 (F := Ideal) x3 x4) (k2_pay3 (F := Ideal) x0 x1 x2 x6 x7 x8 x9 x5)
      = combine x3 x4 x5 (lin3 x0 x6 x1 x7 x2 x8 (rowVec x9)) := by
  unfold k2_pay1 k2_pay2 k2_pay3
  simp only [shapeCast_self]
  rw [unitLin3_eq dot_S2000x128_S128x128_S2000x128_1_0_0_1_n_n rfl dot_S2000x128_S128x128_S2000x128_1_0_0_1_n_n rfl
    dot_S2000x128_S128x128_S2000x128_1_0_0_1_n_n rfl]
  exact combine_eq x3 (lin3 x0 x6 x1 x7 x2 x8 (rowVec x9)) x4 x5 broadcasts_S2000x1_S2000x128
    broadcasts_S2000x1_S2000x128

section Region

variable (V : (c : Dev nD) → (b : Ref sig .tc) → Buf (Elt Ideal) ((c : Thread nD τ).loc b)) (c : Dev nD)

/-! ## Where each window's block sits in its array

The row-blocked windows are at block row `t`; the three weights and the bias row at block zero. -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = t.val ∧ win2_3.index t (1 : Fin 2) = 0 :=
  (by decide +kernel : ∀ t : Fin grid2.N, _)
theorem idx2_4 : ∀ t : Fin cfg2.N, win2_4.index t (0 : Fin 2) = t.val ∧ win2_4.index t (1 : Fin 2) = 0 :=
  (by decide +kernel : ∀ t : Fin grid2.N, _)
theorem idx2_5 : ∀ t : Fin cfg2.N, win2_5.index t (0 : Fin 2) = t.val ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)
theorem idx2_8 : ∀ t : Fin cfg2.N, win2_8.index t (0 : Fin 2) = 0 ∧ win2_8.index t (1 : Fin 2) = 0 :=
  (by decide +kernel : ∀ t : Fin grid2.N, _)
theorem idx2_9 : ∀ t : Fin cfg2.N, win2_9.index t (0 : Fin 2) = 0 ∧ win2_9.index t (1 : Fin 2) = 0 :=
  (by decide +kernel : ∀ t : Fin grid2.N, _)
theorem idx2_10 : ∀ t : Fin cfg2.N, win2_10.index t (0 : Fin 2) = t.val ∧ win2_10.index t (1 : Fin 2) = 0 :=
  (by decide +kernel : ∀ t : Fin grid2.N, _)

/-- The features' block at point `t` is rows `2000 t … 2000 t + 1999` of the whole array. -/
theorem blk2_0 (t : Fin cfg2.N) (y : S2000x128.Idx) (i : S100000x128.Idx)
    (h0 : (i 0).val = t.val * 2000 + (y 0).val) (h1 : (i 1).val = (y 1).val) :
    (iblk2 V c 0 t : Vec Ideal S2000x128 .f32) y = (V c main_arg0 : S100000x128.Idx → EReal) i := by
  obtain ⟨e0, e1⟩ := idx2_0 t
  unfold iblk2
  rw [View.read_apply]
  show V c main_arg0 _ = V c main_arg0 _
  congr 1
  funext a
  apply Fin.ext
  match a with
  | ⟨0, _⟩ => show win2_0.index t (0 : Fin 2) * 2000 + 1 * (y 0).val = (i 0).val; rw [e0, h0]; omega
  | ⟨1, _⟩ => show win2_0.index t (1 : Fin 2) * 128 + 1 * (y 1).val = (i 1).val; rw [e1, h1]; omega

/-- The first activation's block at point `t` is rows `2000 t … 2000 t + 1999` of the whole array. -/
theorem blk2_1 (t : Fin cfg2.N) (y : S2000x128.Idx) (i : S100000x128.Idx)
    (h0 : (i 0).val = t.val * 2000 + (y 0).val) (h1 : (i 1).val = (y 1).val) :
    (iblk2 V c 1 t : Vec Ideal S2000x128 .f32) y = (V c main_v12_0 : S100000x128.Idx → EReal) i := by
  obtain ⟨e0, e1⟩ := idx2_1 t
  unfold iblk2
  rw [View.read_apply]
  show V c main_v12_0 _ = V c main_v12_0 _
  congr 1
  funext a
  apply Fin.ext
  match a with
  | ⟨0, _⟩ => show win2_1.index t (0 : Fin 2) * 2000 + 1 * (y 0).val = (i 0).val; rw [e0, h0]; omega
  | ⟨1, _⟩ => show win2_1.index t (1 : Fin 2) * 128 + 1 * (y 1).val = (i 1).val; rw [e1, h1]; omega

/-- The second activation's block at point `t` is rows `2000 t … 2000 t + 1999` of the whole array. -/
theorem blk2_2 (t : Fin cfg2.N) (y : S2000x128.Idx) (i : S100000x128.Idx)
    (h0 : (i 0).val = t.val * 2000 + (y 0).val) (h1 : (i 1).val = (y 1).val) :
    (iblk2 V c 2 t : Vec Ideal S2000x128 .f32) y = (V c main_v28_0 : S100000x128.Idx → EReal) i := by
  obtain ⟨e0, e1⟩ := idx2_2 t
  unfold iblk2
  rw [View.read_apply]
  show V c main_v28_0 _ = V c main_v28_0 _
  congr 1
  funext a
  apply Fin.ext
  match a with
  | ⟨0, _⟩ => show win2_2.index t (0 : Fin 2) * 2000 + 1 * (y 0).val = (i 0).val; rw [e0, h0]; omega
  | ⟨1, _⟩ => show win2_2.index t (1 : Fin 2) * 128 + 1 * (y 1).val = (i 1).val; rw [e1, h1]; omega

/-- The aggregated messages' block at point `t` is rows `2000 t … 2000 t + 1999` of the whole array. -/
theorem blk2_3 (t : Fin cfg2.N) (y : S2000x128.Idx) (i : S100000x128.Idx)
    (h0 : (i 0).val = t.val * 2000 + (y 0).val) (h1 : (i 1).val = (y 1).val) :
    (iblk2 V c 3 t : Vec Ideal S2000x128 .f32) y = (V c main_v38 : S100000x128.Idx → EReal) i := by
  obtain ⟨e0, e1⟩ := idx2_3 t
  unfold iblk2
  rw [View.read_apply]
  show V c main_v38 _ = V c main_v38 _
  congr 1
  funext a
  apply Fin.ext
  match a with
  | ⟨0, _⟩ => show win2_3.index t (0 : Fin 2) * 2000 + 1 * (y 0).val = (i 0).val; rw [e0, h0]; omega
  | ⟨1, _⟩ => show win2_3.index t (1 : Fin 2) * 128 + 1 * (y 1).val = (i 1).val; rw [e1, h1]; omega

/-- The first factors' block at point `t` is rows `2000 t … 2000 t + 1999` of the whole column. -/
theorem blk2_4 (t : Fin cfg2.N) (y : S2000x1.Idx) (i : S100000x1.Idx)
    (h0 : (i 0).val = t.val * 2000 + (y 0).val) (h1 : (i 1).val = (y 1).val) :
    (iblk2 V c 4 t : Vec Ideal S2000x1 .f32) y = (V c main_v7 : S100000x1.Idx → EReal) i := by
  obtain ⟨e0, e1⟩ := idx2_4 t
  unfold iblk2
  rw [View.read_apply]
  show V c main_v7 _ = V c main_v7 _
  congr 1
  funext a
  apply Fin.ext
  match a with
  | ⟨0, _⟩ => show win2_4.index t (0 : Fin 2) * 2000 + 1 * (y 0).val = (i 0).val; rw [e0, h0]; omega
  | ⟨1, _⟩ => show win2_4.index t (1 : Fin 2) * 1 + 1 * (y 1).val = (i 1).val; rw [e1, h1]; omega

/-- The second factors' block at point `t` is rows `2000 t … 2000 t + 1999` of the whole column. -/
theorem blk2_5 (t : Fin cfg2.N) (y : S2000x1.Idx) (i : S100000x1.Idx)
    (h0 : (i 0).val = t.val * 2000 + (y 0).val) (h1 : (i 1).val = (y 1).val) :
    (iblk2 V c 5 t : Vec Ideal S2000x1 .f32) y = (V c main_v9 : S100000x1.Idx → EReal) i := by
  obtain ⟨e0, e1⟩ := idx2_5 t
  unfold iblk2
  rw [View.read_apply]
  show V c main_v9 _ = V c main_v9 _
  congr 1
  funext a
  apply Fin.ext
  match a with
  | ⟨0, _⟩ => show win2_5.index t (0 : Fin 2) * 2000 + 1 * (y 0).val = (i 0).val; rw [e0, h0]; omega
  | ⟨1, _⟩ => show win2_5.index t (1 : Fin 2) * 1 + 1 * (y 1).val = (i 1).val; rw [e1, h1]; omega

/-- The first weight's block at any point is the whole weight. -/
theorem blk2_6 (t : Fin cfg2.N) (y : S128x128.Idx) :
    (iblk2 V c 6 t : Vec Ideal S128x128 .f32) y = (V c main_v40 : S128x128.Idx → EReal) y := by
  obtain ⟨e0, e1⟩ := idx2_6 t
  unfold iblk2
  rw [View.read_apply]
  show V c main_v40 _ = V c main_v40 _
  congr 1
  funext a
  apply Fin.ext
  match a with
  | ⟨0, _⟩ => show win2_6.index t (0 : Fin 2) * 128 + 1 * (y 0).val = (y 0).val; rw [e0]; omega
  | ⟨1, _⟩ => show win2_6.index t (1 : Fin 2) * 128 + 1 * (y 1).val = (y 1).val; rw [e1]; omega

/-- The second weight's block at any point is the whole weight. -/
theorem blk2_7 (t : Fin cfg2.N) (y : S128x128.Idx) :
    (iblk2 V c 7 t : Vec Ideal S128x128 .f32) y = (V c main_v42 : S128x128.Idx → EReal) y := by
  obtain ⟨e0, e1⟩ := idx2_7 t
  unfold iblk2
  rw [View.read_apply]
  show V c main_v42 _ = V c main_v42 _
  congr 1
  funext a
  apply Fin.ext
  match a with
  | ⟨0, _⟩ => show win2_7.index t (0 : Fin 2) * 128 + 1 * (y 0).val = (y 0).val; rw [e0]; omega
  | ⟨1, _⟩ => show win2_7.index t (1 : Fin 2) * 128 + 1 * (y 1).val = (y 1).val; rw [e1]; omega

/-- The third weight's block at any point is the whole weight. -/
theorem blk2_8 (t : Fin cfg2.N) (y : S128x128.Idx) :
    (iblk2 V c 8 t : Vec Ideal S128x128 .f32) y = (V c main_v44 : S128x128.Idx → EReal) y := by
  obtain ⟨e0, e1⟩ := idx2_8 t
  unfold iblk2
  rw [View.read_apply]
  show V c main_v44 _ = V c main_v44 _
  congr 1
  funext a
  apply Fin.ext
  match a with
  | ⟨0, _⟩ => show win2_8.index t (0 : Fin 2) * 128 + 1 * (y 0).val = (y 0).val; rw [e0]; omega
  | ⟨1, _⟩ => show win2_8.index t (1 : Fin 2) * 128 + 1 * (y 1).val = (y 1).val; rw [e1]; omega

/-- The bias row's block at any point is the bias row. -/
theorem blk2_9 (t : Fin cfg2.N) (y : S1x128.Idx) :
    (iblk2 V c 9 t : Vec Ideal S1x128 .f32) y = (V c main_v45 : S1x128.Idx → EReal) y := by
  obtain ⟨e0, e1⟩ := idx2_9 t
  unfold iblk2
  rw [View.read_apply]
  show V c main_v45 _ = V c main_v45 _
  congr 1
  funext a
  apply Fin.ext
  match a with
  | ⟨0, _⟩ => show win2_9.index t (0 : Fin 2) * 1 + 1 * (y 0).val = (y 0).val; rw [e0]; omega
  | ⟨1, _⟩ => show win2_9.index t (1 : Fin 2) * 128 + 1 * (y 1).val = (y 1).val; rw [e1]; omega

/-! ## What a point writes back -/

/-- The three-product layer of the blocks at point `t`, at row `y` of the block, is the three-product layer of the
    whole arrays at row `2000 t + y`. -/
theorem lin3_blk2 (t : Fin cfg2.N) (j : S2000x128.Idx) (i : S100000x128.Idx)
    (h0 : (i 0).val = t.val * 2000 + (j 0).val) (h1 : i 1 = j 1) :
    lin3 (iblk2 V c 0 t) (iblk2 V c 6 t) (iblk2 V c 1 t) (iblk2 V c 7 t) (iblk2 V c 2 t) (iblk2 V c 8 t)
        (rowVec (iblk2 V c 9 t)) j
      = lin3 (V c main_arg0) (V c main_v40) (V c main_v12_0) (V c main_v42) (V c main_v28_0) (V c main_v44)
          (rowVec (V c main_v45)) i := by
  refine lin3_block (iblk2 V c 0 t) (iblk2 V c 6 t) (iblk2 V c 1 t) (iblk2 V c 7 t) (iblk2 V c 2 t) (iblk2 V c 8 t)
    (iblk2 V c 9 t) (V c main_arg0) (V c main_v40) (V c main_v12_0) (V c main_v42) (V c main_v28_0) (V c main_v44)
    (V c main_v45) j i (fun k => ?_) (fun k => ?_) (fun k => ?_) (fun k => ?_) (fun k => ?_) (fun k => ?_) ?_
  · exact blk2_0 V c t _ _ h0 rfl
  · rw [h1]; exact blk2_6 V c t _
  · exact blk2_1 V c t _ _ h0 rfl
  · rw [h1]; exact blk2_7 V c t _
  · exact blk2_2 V c t _ _ h0 rfl
  · rw [h1]; exact blk2_8 V c t _
  · rw [h1]; exact blk2_9 V c t _

/-- Point `t` writes back the block at `t` of the row-by-row join of the whole arrays. -/
theorem flushed2_combine (t : Fin cfg2.N) :
    (dat2 (F := Ideal) V c).flushed 10 t
      = ((cfg2.win 10).blk t).view.read (Elt Ideal)
          (combine (V c main_v38) (V c main_v7) (V c main_v9)
            (lin3 (V c main_arg0) (V c main_v40) (V c main_v12_0) (V c main_v42) (V c main_v28_0) (V c main_v44)
              (rowVec (V c main_v45)))) := by
  show (cfg2.win 10).cut (grid2.coords t) ((dat2 V c).after 10 t) = _
  rw [after2_10]
  unfold out2_10
  rw [View.canon_unit_zero hz2]
  simp only [View.ld_unit_zero (S := S2000x128) hz2, View.ld_unit_zero (S := S128x128) hz2,
    View.ld_unit_zero (S := S1x128) hz2, View.ld_unit_zero (S := S2000x1) hz2]
  rw [pay2_combine]
  obtain ⟨e0, e1⟩ := idx2_10 t
  funext j
  show combine (iblk2 V c 3 t) (iblk2 V c 4 t) (iblk2 V c 5 t)
      (lin3 (iblk2 V c 0 t) (iblk2 V c 6 t) (iblk2 V c 1 t) (iblk2 V c 7 t) (iblk2 V c 2 t) (iblk2 V c 8 t)
        (rowVec (iblk2 V c 9 t))) j
    = combine (V c main_v38) (V c main_v7) (V c main_v9)
        (lin3 (V c main_arg0) (V c main_v40) (V c main_v12_0) (V c main_v42) (V c main_v28_0) (V c main_v44)
          (rowVec (V c main_v45))) (((cfg2.win 10).blk t).view.emb j)
  have r0 : ((((cfg2.win 10).blk t).view.emb j) 0).val = t.val * 2000 + (j 0).val := by
    show win2_10.index t (0 : Fin 2) * 2000 + 1 * (j 0).val = _; rw [e0]; omega
  have r1 : ((((cfg2.win 10).blk t).view.emb j) 1).val = (j 1).val := by
    show win2_10.index t (1 : Fin 2) * 128 + 1 * (j 1).val = _; rw [e1]; omega
  refine combine_block (iblk2 V c 3 t) _ (iblk2 V c 4 t) (iblk2 V c 5 t) (V c main_v38) _ (V c main_v7) (V c main_v9)
    j (((cfg2.win 10).blk t).view.emb j) ?_ ?_ ?_ ?_
  · exact blk2_3 V c t _ _ r0 r1
  · exact lin3_blk2 V c t j _ r0 (Fin.ext r1)
  · exact blk2_4 V c t _ _ r0 rfl
  · exact blk2_5 V c t _ _ r0 rfl

/-! ## The blocks cover the array -/

/-- An index of the output is in point `t`'s block iff each coordinate is in the block's range on its axis. -/
theorem mem_blk2_10 (t : Fin cfg2.N) (i : S100000x128.Idx) :
    i ∈ ((cfg2.win 10).blk t).view.set ↔ ∀ a : Fin 2, win2_10.index t a * S2000x128.size a ≤ (i a).val
      ∧ (i a).val < win2_10.index t a * S2000x128.size a + S2000x128.size a := by
  show i ∈ ((View.whole main_v46).slice (win2_10.rect t)).set ↔ _
  rw [View.set_slice_whole, Rect.mem_set_unit]
  exact Iff.rfl

/-- Row `r` of the output is in the block of point `r / 2000`. -/
theorem rows_cover2_10 (i : S100000x128.Idx) :
    ∃ t : Fin cfg2.N, (cfg2.win 10).flush t = true ∧ i ∈ ((cfg2.win 10).blk t).view.set := by
  have hi0 : (i 0).val < 100000 := (i 0).isLt
  have hi1 : (i 1).val < 128 := (i 1).isLt
  have hN : cfg2.N = 50 := N_2
  have ht : (i 0).val / 2000 < cfg2.N := by rw [hN]; omega
  obtain ⟨e0, e1⟩ := idx2_10 ⟨(i 0).val / 2000, ht⟩
  refine ⟨⟨(i 0).val / 2000, ht⟩, flush2_10 _, ?_⟩
  rw [mem_blk2_10]
  intro a
  match a with
  | ⟨0, _⟩ =>
    show win2_10.index ⟨(i 0).val / 2000, ht⟩ (0 : Fin 2) * 2000 ≤ (i 0).val
      ∧ (i 0).val < win2_10.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_10.index ⟨(i 0).val / 2000, ht⟩ (1 : Fin 2) * 128 ≤ (i 1).val
      ∧ (i 1).val < win2_10.index ⟨(i 0).val / 2000, ht⟩ (1 : Fin 2) * 128 + 128
    rw [e1]; omega

/-! ## The array after the region -/

/-- The output ends holding the row-by-row join of the aggregated messages with the three-product layer of the
    features and the two earlier activations. -/
theorem arr2_10 : (dat2 (F := Ideal) V c).arrAt 10 cfg2.N
    = combine (V c main_v38) (V c main_v7) (V c main_v9)
        (lin3 (V c main_arg0) (V c main_v40) (V c main_v12_0) (V c main_v42) (V c main_v28_0) (V c main_v44)
          (rowVec (V c main_v45))) :=
  (dat2 V c).arrAt_eq_of_cover 10
    (combine (V c main_v38) (V c main_v7) (V c main_v9)
      (lin3 (V c main_arg0) (V c main_v40) (V c main_v12_0) (V c main_v42) (V c main_v28_0) (V c main_v44)
        (rowVec (V c main_v45))))
    (fun t _ => flushed2_combine V c t) rows_cover2_10

end Region

end Cert.Gnn.Kern

end
-- ==== Proof.RefStages.lean ====
/-
  The stages of the reference program as the layers of the specification.

  The reference computes a degree-normalised graph network on the host, one array operation at a time. Read entry by
  entry, its dense parts are the specification's layers: the first activation is `x · W₀ᵀ + b₀` (a contraction against
  the transposed weight, plus the bias broadcast to every row); a pre-normalised activation is the activation with
  every row scaled by that node's factor; and each deeper activation joins the aggregated messages `A` with a dense
  layer on the row-wise concatenation of all earlier activations as `A · s + s₂ · L`. The contraction over the
  concatenated columns splits at the seams into one sum of `128` terms per block, and left or right of a seam the
  concatenation reads the block that lies there. The aggregated messages and the two normalisation columns stay
  unopened: both sides of every equation carry the same terms for them.
-/
import proofs.«153759_j50448685859076_2_alg».proof.Proof.Gen.ReferenceIdeal.Read
import proofs.«153759_j50448685859076_2_alg».proof.Proof.LibGnnLayers

noncomputable section

open scoped BigOperators

namespace Cert.Gnn.Ref

open Cert.ReferenceIdeal Cert.ReferenceIdeal.Read Cert.Gnn Idealize.ShloMosaic Idealize.ShloMosaic.ValueIdx

/-! ## The index functions of the reference's layout operations, on coordinates -/

/-- The left operand of the first contraction is read at row `p`, column `k`. -/
theorem lidx11 (p : Fin 100000) (q k : Fin 128) : lidx_main_v11 (ix2 p q) k = ix2 p k :=
  funext fun a => Fin.ext (by match a with | ⟨0, _⟩ => rfl | ⟨1, _⟩ => rfl)

/-- The transposed first weight, read where the contraction reads it, is the weight at `(q, k)`. -/
theorem ridx11 (p : Fin 100000) (q k : Fin 128) : idx_main_v10 (ridx_main_v11 (ix2 p q) k) = ix2 q k :=
  funext fun a => Fin.ext (by match a with | ⟨0, _⟩ => rfl | ⟨1, _⟩ => rfl)

/-- A bias broadcast to a row and then to every row is read at the column. -/
theorem bias13 (p : Fin 100000) (q : Fin 128) : idx_main_v12 (idx_main_v13 (ix2 p q)) = ix1 q :=
  funext fun a => Fin.ext (by match a with | ⟨0, _⟩ => rfl)

/-- A column broadcast along the rows' entries is read at the row. -/
theorem col15 (p : Fin 100000) (q : Fin 128) : idx_main_v15 (ix2 p q) = ix2 p (0 : Fin 1) :=
  funext fun a => Fin.ext (by match a with | ⟨0, _⟩ => rfl | ⟨1, _⟩ => rfl)

/-! ## The first activation and its pre-normalised form -/

section
variable (x0 : (⟨S100000x128, .f32⟩ : BufTy).Contents (Elt Ideal))
  (x1 x2 : (⟨S1600000, .i32⟩ : BufTy).Contents (Elt Ideal))
  (x3 : (⟨S128x128, .f32⟩ : BufTy).Contents (Elt Ideal)) (x4 : (⟨S128, .f32⟩ : BufTy).Contents (Elt Ideal))
  (x5 : (⟨S128x256, .f32⟩ : BufTy).Contents (Elt Ideal)) (x6 : (⟨S128, .f32⟩ : BufTy).Contents (Elt Ideal))
  (x7 : (⟨S128x384, .f32⟩ : BufTy).Contents (Elt Ideal)) (x8 : (⟨S128, .f32⟩ : BufTy).Contents (Elt Ideal))

/-- The first activation is the dense layer of the features: `x · W₀ᵀ + b₀`. -/
theorem v14_eq : val_main_v14 (F := Ideal) x0 x3 x4 = dense1 x0 x3 x4 := by
  funext i
  obtain ⟨p, q, rfl⟩ : ∃ (p : Fin 100000) (q : Fin 128), i = ix2 p q := ⟨i 0, i 1, eq_ix2 i⟩
  rw [val_main_v14_apply, val_main_v11_apply, val_main_v13_apply, val_main_v12_apply, Ideal.addf_def, bias13]
  refine congrArg (· + x4 (ix1 q)) (Finset.sum_congr rfl fun k _ => ?_)
  rw [val_main_v10_apply, lidx11, ridx11]

/-- The pre-normalised first activation is the activation with every row scaled by the node's factor. -/
theorem v16_eq : val_main_v16 (F := Ideal) x0 x2 x3 x4
    = scaleRows (val_main_v14 (F := Ideal) x0 x3 x4) (val_main_v7 (F := Ideal) x2) := by
  funext i
  obtain ⟨p, q, rfl⟩ : ∃ (p : Fin 100000) (q : Fin 128), i = ix2 p q := ⟨i 0, i 1, eq_ix2 i⟩
  rw [val_main_v16_apply, val_main_v15_apply, Ideal.mulf_def, col15]
  rfl

end

/-! ## The second activation -/

/-- A column broadcast along the rows' entries is read at the row (the aggregated messages' factor). -/
theorem col28 (p : Fin 100000) (q : Fin 128) : idx_main_v28 (ix2 p q) = ix2 p (0 : Fin 1) :=
  funext fun a => Fin.ext (by match a with | ⟨0, _⟩ => rfl | ⟨1, _⟩ => rfl)

/-- The same for the dense part's factor. -/
theorem col35 (p : Fin 100000) (q : Fin 128) : idx_main_v35 (ix2 p q) = ix2 p (0 : Fin 1) :=
  funext fun a => Fin.ext (by match a with | ⟨0, _⟩ => rfl | ⟨1, _⟩ => rfl)

/-- The same for the second pre-normalisation. -/
theorem col38 (p : Fin 100000) (q : Fin 128) : idx_main_v38 (ix2 p q) = ix2 p (0 : Fin 1) :=
  funext fun a => Fin.ext (by match a with | ⟨0, _⟩ => rfl | ⟨1, _⟩ => rfl)

/-- The second bias is read at the column. -/
theorem bias33 (p : Fin 100000) (q : Fin 128) : idx_main_v32 (idx_main_v33 (ix2 p q)) = ix1 q :=
  funext fun a => Fin.ext (by match a with | ⟨0, _⟩ => rfl)

/-- The transposed second weight, read where the contraction reads it, is the weight at `(q, k)`. -/
theorem ridx31 (p : Fin 100000) (q : Fin 128) (k : Fin 256) : idx_main_v30 (ridx_main_v31 (ix2 p q) k) = ix2 q k :=
  funext fun a => Fin.ext (by match a with | ⟨0, _⟩ => rfl | ⟨1, _⟩ => rfl)

/-- The left operand of the second contraction is read at row `p`, column `k`. -/
theorem lidx31 (p : Fin 100000) (q : Fin 128) (k : Fin 256) : lidx_main_v31 (ix2 p q) k = ix2 p k :=
  funext fun a => Fin.ext (by match a with | ⟨0, _⟩ => rfl | ⟨1, _⟩ => rfl)

section
variable (x0 : (⟨S100000x128, .f32⟩ : BufTy).Contents (Elt Ideal))
  (x1 x2 : (⟨S1600000, .i32⟩ : BufTy).Contents (Elt Ideal))
  (x3 : (⟨S128x128, .f32⟩ : BufTy).Contents (Elt Ideal)) (x4 : (⟨S128, .f32⟩ : BufTy).Contents (Elt Ideal))
  (x5 : (⟨S128x256, .f32⟩ : BufTy).Contents (Elt Ideal)) (x6 : (⟨S128, .f32⟩ : BufTy).Contents (Elt Ideal))

/-- Left of the seam the two-block concatenation reads the features. -/
theorem v27_left (p : Fin 100000) (k : Fin 128) :
    val_main_v27 (F := Ideal) x0 x3 x4 (ix2 p (col0 (by decide) k : Fin 256)) = x0 (ix2 p k) := by
  unfold val_main_v27
  generalize val_main_v14 (F := Ideal) x0 x3 x4 = y
  exact concatenate_pair_apply_left (t := S100000x256) (s₁ := S100000x128) (s₂ := S100000x128) 1 x0 y _
    (ix2 p (col0 (by decide) k : Fin 256)) rfl (ix2 p k) (fun b => by
    match b with
    | ⟨0, _⟩ => rfl
    | ⟨1, _⟩ => rfl)

/-- Right of the seam it reads the first activation, the column counted from the seam. -/
theorem v27_right (p : Fin 100000) (k : Fin 128) :
    val_main_v27 (F := Ideal) x0 x3 x4 (ix2 p (col1 (by decide) k : Fin 256))
      = val_main_v14 (F := Ideal) x0 x3 x4 (ix2 p k) := by
  unfold val_main_v27
  generalize val_main_v14 (F := Ideal) x0 x3 x4 = y
  exact concatenate_pair_apply_right (t := S100000x256) (s₁ := S100000x128) (s₂ := S100000x128) 1 x0 y _
    (ix2 p (col1 (by decide) k : Fin 256)) rfl rfl (ix2 p k) (fun b hb => by
    match b, hb with
    | ⟨0, _⟩, _ => rfl
    | ⟨1, _⟩, h => exact absurd rfl h) (by show k.val + 128 = 128 + k.val; omega)

/-- The second contraction, split at the seam into the features' and the first activation's sums. -/
theorem v31_apply2 (p : Fin 100000) (q : Fin 128) :
    val_main_v31 (F := Ideal) x0 x3 x4 x5 (ix2 p q)
      = (∑ k : Fin 128, x0 (ix2 p k) * x5 (ix2 q (col0 (by decide) k)))
        + (∑ k : Fin 128, val_main_v14 (F := Ideal) x0 x3 x4 (ix2 p k) * x5 (ix2 q (col1 (by decide) k))) := by
  rw [val_main_v31_apply]
  refine (sum_split256 _).trans ?_
  refine congrArg₂ (· + ·) (Finset.sum_congr rfl fun k _ => ?_) (Finset.sum_congr rfl fun k _ => ?_)
  · show val_main_v27 (F := Ideal) x0 x3 x4 (lidx_main_v31 (ix2 p q) (col0 (by decide) k))
        * val_main_v30 (F := Ideal) x5 (ridx_main_v31 (ix2 p q) (col0 (by decide) k)) = _
    rw [val_main_v30_apply, lidx31, ridx31, v27_left]
  · show val_main_v27 (F := Ideal) x0 x3 x4 (lidx_main_v31 (ix2 p q) (col1 (by decide) k))
        * val_main_v30 (F := Ideal) x5 (ridx_main_v31 (ix2 p q) (col1 (by decide) k)) = _
    rw [val_main_v30_apply, lidx31, ridx31, v27_right]

/-- The second activation joins the aggregated messages with the dense layer on features and first activation. -/
theorem v37_eq : val_main_v37 (F := Ideal) x0 x1 x2 x3 x4 x5 x6
    = combine (val_main_v26 (F := Ideal) x0 x1 x2 x3 x4) (val_main_v7 (F := Ideal) x2) (val_main_v9 (F := Ideal) x2)
        (dense2 x0 (val_main_v14 (F := Ideal) x0 x3 x4) x5 x6) := by
  funext i
  obtain ⟨p, q, rfl⟩ : ∃ (p : Fin 100000) (q : Fin 128), i = ix2 p q := ⟨i 0, i 1, eq_ix2 i⟩
  rw [val_main_v37_apply, val_main_v29_apply, val_main_v28_apply, val_main_v36_apply, val_main_v35_apply,
    val_main_v34_apply, val_main_v33_apply, val_main_v32_apply, v31_apply2, Ideal.addf_def, Ideal.mulf_def,
    Ideal.mulf_def, Ideal.addf_def, col28, col35, bias33]
  rfl

/-- The pre-normalised second activation. -/
theorem v39_eq : val_main_v39 (F := Ideal) x0 x1 x2 x3 x4 x5 x6
    = scaleRows (val_main_v37 (F := Ideal) x0 x1 x2 x3 x4 x5 x6) (val_main_v7 (F := Ideal) x2) := by
  funext i
  obtain ⟨p, q, rfl⟩ : ∃ (p : Fin 100000) (q : Fin 128), i = ix2 p q := ⟨i 0, i 1, eq_ix2 i⟩
  rw [val_main_v39_apply, val_main_v38_apply, Ideal.mulf_def, col38]
  rfl

end

/-! ## The third activation -/

/-- A column broadcast along the rows' entries is read at the row (the aggregated messages' factor). -/
theorem col51 (p : Fin 100000) (q : Fin 128) : idx_main_v51 (ix2 p q) = ix2 p (0 : Fin 1) :=
  funext fun a => Fin.ext (by match a with | ⟨0, _⟩ => rfl | ⟨1, _⟩ => rfl)

/-- The same for the dense part's factor. -/
theorem col58 (p : Fin 100000) (q : Fin 128) : idx_main_v58 (ix2 p q) = ix2 p (0 : Fin 1) :=
  funext fun a => Fin.ext (by match a with | ⟨0, _⟩ => rfl | ⟨1, _⟩ => rfl)

/-- The third bias is read at the column. -/
theorem bias56 (p : Fin 100000) (q : Fin 128) : idx_main_v55 (idx_main_v56 (ix2 p q)) = ix1 q :=
  funext fun a => Fin.ext (by match a with | ⟨0, _⟩ => rfl)

/-- The transposed third weight, read where the contraction reads it, is the weight at `(q, k)`. -/
theorem ridx54 (p : Fin 100000) (q : Fin 128) (k : Fin 384) : idx_main_v53 (ridx_main_v54 (ix2 p q) k) = ix2 q k :=
  funext fun a => Fin.ext (by match a with | ⟨0, _⟩ => rfl | ⟨1, _⟩ => rfl)

/-- The left operand of the third contraction is read at row `p`, column `k`. -/
theorem lidx54 (p : Fin 100000) (q : Fin 128) (k : Fin 384) : lidx_main_v54 (ix2 p q) k = ix2 p k :=
  funext fun a => Fin.ext (by match a with | ⟨0, _⟩ => rfl | ⟨1, _⟩ => rfl)

section
variable (x0 : (⟨S100000x128, .f32⟩ : BufTy).Contents (Elt Ideal))
  (x1 x2 : (⟨S1600000, .i32⟩ : BufTy).Contents (Elt Ideal))
  (x3 : (⟨S128x128, .f32⟩ : BufTy).Contents (Elt Ideal)) (x4 : (⟨S128, .f32⟩ : BufTy).Contents (Elt Ideal))
  (x5 : (⟨S128x256, .f32⟩ : BufTy).Contents (Elt Ideal)) (x6 : (⟨S128, .f32⟩ : BufTy).Contents (Elt Ideal))
  (x7 : (⟨S128x384, .f32⟩ : BufTy).Contents (Elt Ideal)) (x8 : (⟨S128, .f32⟩ : BufTy).Contents (Elt Ideal))

/-- In its first 128 columns the three-block concatenation reads the features. -/
theorem v50_block0 (p : Fin 100000) (k : Fin 128) :
    val_main_v50 (F := Ideal) x0 x1 x2 x3 x4 x5 x6 (ix2 p (col0 (by decide) k : Fin 384)) = x0 (ix2 p k) := by
  unfold val_main_v50
  generalize val_main_v14 (F := Ideal) x0 x3 x4 = y
  generalize val_main_v37 (F := Ideal) x0 x1 x2 x3 x4 x5 x6 = z
  exact concatenate_apply_piece (t := S100000x384) 1 [⟨S100000x128, x0⟩, ⟨S100000x128, y⟩, ⟨S100000x128, z⟩] _
    (ix2 p (col0 (by decide) k : Fin 384)) 0 (show (0 : Nat) < 3 by decide) S100000x128 x0 rfl rfl 0 rfl (ix2 p k) (fun b hb => by
      match b, hb with
      | ⟨0, _⟩, _ => rfl
      | ⟨1, _⟩, h => exact absurd rfl h) (by show 0 + k.val = k.val; omega)

/-- In columns 128 to 255 it reads the first activation, the column counted from 128. -/
theorem v50_block1 (p : Fin 100000) (k : Fin 128) :
    val_main_v50 (F := Ideal) x0 x1 x2 x3 x4 x5 x6 (ix2 p (col1 (by decide) k : Fin 384))
      = val_main_v14 (F := Ideal) x0 x3 x4 (ix2 p k) := by
  unfold val_main_v50
  generalize val_main_v14 (F := Ideal) x0 x3 x4 = y
  generalize val_main_v37 (F := Ideal) x0 x1 x2 x3 x4 x5 x6 = z
  exact concatenate_apply_piece (t := S100000x384) 1 [⟨S100000x128, x0⟩, ⟨S100000x128, y⟩, ⟨S100000x128, z⟩] _
    (ix2 p (col1 (by decide) k : Fin 384)) 1 (show (1 : Nat) < 3 by decide) S100000x128 y rfl rfl 128 rfl (ix2 p k) (fun b hb => by
      match b, hb with
      | ⟨0, _⟩, _ => rfl
      | ⟨1, _⟩, h => exact absurd rfl h) (by show 128 + k.val = 128 + k.val; rfl)

/-- In columns 256 to 383 it reads the second activation, the column counted from 256. -/
theorem v50_block2 (p : Fin 100000) (k : Fin 128) :
    val_main_v50 (F := Ideal) x0 x1 x2 x3 x4 x5 x6 (ix2 p (col2 (by decide) k : Fin 384))
      = val_main_v37 (F := Ideal) x0 x1 x2 x3 x4 x5 x6 (ix2 p k) := by
  unfold val_main_v50
  generalize val_main_v14 (F := Ideal) x0 x3 x4 = y
  generalize val_main_v37 (F := Ideal) x0 x1 x2 x3 x4 x5 x6 = z
  exact concatenate_apply_piece (t := S100000x384) 1 [⟨S100000x128, x0⟩, ⟨S100000x128, y⟩, ⟨S100000x128, z⟩] _
    (ix2 p (col2 (by decide) k : Fin 384)) 2 (show (2 : Nat) < 3 by decide) S100000x128 z rfl rfl 256 rfl (ix2 p k) (fun b hb => by
      match b, hb with
      | ⟨0, _⟩, _ => rfl
      | ⟨1, _⟩, h => exact absurd rfl h) (by show 256 + k.val = 256 + k.val; rfl)

/-- The third contraction, split at the two seams into the three blocks' sums. -/
theorem v54_apply3 (p : Fin 100000) (q : Fin 128) :
    val_main_v54 (F := Ideal) x0 x1 x2 x3 x4 x5 x6 x7 (ix2 p q)
      = ((∑ k : Fin 128, x0 (ix2 p k) * x7 (ix2 q (col0 (by decide) k)))
          + (∑ k : Fin 128, val_main_v14 (F := Ideal) x0 x3 x4 (ix2 p k) * x7 (ix2 q (col1 (by decide) k))))
        + (∑ k : Fin 128, val_main_v37 (F := Ideal) x0 x1 x2 x3 x4 x5 x6 (ix2 p k) * x7 (ix2 q (col2 (by decide) k))) := by
  rw [val_main_v54_apply]
  refine (sum_split384 _).trans ?_
  refine congrArg₂ (· + ·) (congrArg₂ (· + ·) (Finset.sum_congr rfl fun k _ => ?_) (Finset.sum_congr rfl fun k _ => ?_))
    (Finset.sum_congr rfl fun k _ => ?_)
  · show val_main_v50 (F := Ideal) x0 x1 x2 x3 x4 x5 x6 (lidx_main_v54 (ix2 p q) (col0 (by decide) k))
        * val_main_v53 (F := Ideal) x7 (ridx_main_v54 (ix2 p q) (col0 (by decide) k)) = _
    rw [val_main_v53_apply, lidx54, ridx54, v50_block0]
  · show val_main_v50 (F := Ideal) x0 x1 x2 x3 x4 x5 x6 (lidx_main_v54 (ix2 p q) (col1 (by decide) k))
        * val_main_v53 (F := Ideal) x7 (ridx_main_v54 (ix2 p q) (col1 (by decide) k)) = _
    rw [val_main_v53_apply, lidx54, ridx54, v50_block1]
  · show val_main_v50 (F := Ideal) x0 x1 x2 x3 x4 x5 x6 (lidx_main_v54 (ix2 p q) (col2 (by decide) k))
        * val_main_v53 (F := Ideal) x7 (ridx_main_v54 (ix2 p q) (col2 (by decide) k)) = _
    rw [val_main_v53_apply, lidx54, ridx54, v50_block2]

/-- The third activation joins the aggregated messages with the dense layer on all three earlier blocks. -/
theorem v60_eq : val_main_v60 (F := Ideal) x0 x1 x2 x3 x4 x5 x6 x7 x8
    = combine (val_main_v49 (F := Ideal) x0 x1 x2 x3 x4 x5 x6) (val_main_v7 (F := Ideal) x2)
        (val_main_v9 (F := Ideal) x2)
        (dense3 x0 (val_main_v14 (F := Ideal) x0 x3 x4) (val_main_v37 (F := Ideal) x0 x1 x2 x3 x4 x5 x6) x7 x8) := by
  funext i
  obtain ⟨p, q, rfl⟩ : ∃ (p : Fin 100000) (q : Fin 128), i = ix2 p q := ⟨i 0, i 1, eq_ix2 i⟩
  rw [val_main_v60_apply, val_main_v52_apply, val_main_v51_apply, val_main_v59_apply, val_main_v58_apply,
    val_main_v57_apply, val_main_v56_apply, val_main_v55_apply, v54_apply3, Ideal.addf_def, Ideal.mulf_def,
    Ideal.mulf_def, Ideal.addf_def, col51, col58, bias56]
  rfl

end

end Cert.Gnn.Ref

end
-- ==== Proof.LibWeightBlocks.lean ====
/-
  The kernel's arrangement of a dense layer against the layer with its weight stored by output rows.

  The kernel multiplies a block of rows by a weight that the host has already transposed, block of 128 columns by block:
  the transpose of columns `off … off + 127` of an `N × n` weight `W`, read at `(k, q)`, is `W (q, off + k)`. So a product
  with that transposed block, plus the bias vector laid out as a `1 × 128` row and read back, is the layer
  `∑ k, X (p, k) · W (q, off + k) + b q`; with two or three blocks the products are added left to right, which is how the
  sum over the concatenated axis was split. Only re-indexing: no law of arithmetic is used.
-/
import Idealize.ShloMosaic.Lib.ValueIdx
import Idealize.ShloMosaic.Lib.Pipeline.Value
import proofs.«153759_j50448685859076_2_alg».proof.Proof.LibGnnLayers

noncomputable section

open scoped BigOperators

namespace Cert.Gnn

open Idealize.ShloMosaic Idealize.ShloMosaic.ValueIdx Cert.Lib.BiasDot Cert.Lib.Dense Cert.Lib.RowLayers

variable {M n : Nat}

/-- The transposed 128-column block at offset `off` of a weight with 128 rows, read at `(k, q)`, is the weight at
    `(q, off + k)`. -/
theorem trSlice_apply (W : Mat 128 n) (off : Nat)
    (hs : (⟨2, ![128, n]⟩ : Shape).Slices ![0, off] ⟨2, ![128, 128]⟩)
    (ht : (⟨2, ![128, 128]⟩ : Shape).Transposes [1, 0] ⟨2, ![128, 128]⟩)
    (k q : Fin 128) (j : Fin n) (hj : j.val = off + k.val) :
    transpose ⟨2, ![128, 128]⟩ [1, 0] (extractStridedSlice ⟨2, ![128, 128]⟩ ![0, off] W hs) ht (ix2 k q) = W (ix2 q j) := by
  refine (transpose_apply [1, 0] _ ht (ix2 k q) (ix2 q k) (fun b => ?_)).trans ?_
  · match b with
    | ⟨0, _⟩ => rfl
    | ⟨1, _⟩ => rfl
  · exact extractStridedSlice_apply ![0, off] W hs (ix2 q k) (ix2 q j) (fun a => by
      match a with
      | ⟨0, _⟩ => show q.val = 0 + q.val; omega
      | ⟨1, _⟩ => exact hj)

/-- The transposed square weight read at `(k, q)` is the weight at `(q, k)`. -/
theorem tr_apply (W : Mat 128 128) (ht : (⟨2, ![128, 128]⟩ : Shape).Transposes [1, 0] ⟨2, ![128, 128]⟩) (k q : Fin 128) :
    transpose ⟨2, ![128, 128]⟩ [1, 0] W ht (ix2 k q) = W (ix2 q k) :=
  transpose_apply [1, 0] W ht (ix2 k q) (ix2 q k) (fun b => by
    match b with
    | ⟨0, _⟩ => rfl
    | ⟨1, _⟩ => rfl)

/-- One product with the transposed weight plus the bias row is the first dense layer. -/
theorem lin_tr_eq (X : Mat M 128) (W : Mat 128 128) (b : Vect 128)
    (ht : (⟨2, ![128, 128]⟩ : Shape).Transposes [1, 0] ⟨2, ![128, 128]⟩)
    (hc : (⟨1, ![128]⟩ : Shape).ShapeCasts ⟨2, ![1, 128]⟩) :
    lin X (transpose ⟨2, ![128, 128]⟩ [1, 0] W ht) (rowVec (shapeCast ⟨2, ![1, 128]⟩ b hc)) = dense1 X W b := by
  rw [rowVec_reshape]
  funext i
  refine congrArg (· + b (ix1 (i 1))) (Finset.sum_congr rfl fun k _ => ?_)
  exact congrArg (X (ix2 (i 0) k) * ·) (tr_apply W ht k (i 1))

/-- Two products with the two transposed column blocks of a 256-column weight, added, plus the bias row: the layer on the
    two concatenated blocks. -/
theorem lin2_tr_eq (X Y : Mat M 128) (W : Mat 128 256) (b : Vect 128)
    (hs0 : (⟨2, ![128, 256]⟩ : Shape).Slices ![0, 0] ⟨2, ![128, 128]⟩)
    (hs1 : (⟨2, ![128, 256]⟩ : Shape).Slices ![0, 128] ⟨2, ![128, 128]⟩)
    (ht : (⟨2, ![128, 128]⟩ : Shape).Transposes [1, 0] ⟨2, ![128, 128]⟩)
    (hc : (⟨1, ![128]⟩ : Shape).ShapeCasts ⟨2, ![1, 128]⟩) :
    lin2 X (transpose ⟨2, ![128, 128]⟩ [1, 0] (extractStridedSlice ⟨2, ![128, 128]⟩ ![0, 0] W hs0) ht)
        Y (transpose ⟨2, ![128, 128]⟩ [1, 0] (extractStridedSlice ⟨2, ![128, 128]⟩ ![0, 128] W hs1) ht)
        (rowVec (shapeCast ⟨2, ![1, 128]⟩ b hc))
      = dense2 X Y W b := by
  rw [rowVec_reshape]
  funext i
  refine congrArg (· + b (ix1 (i 1))) (congrArg₂ (· + ·) (Finset.sum_congr rfl fun k _ => ?_) (Finset.sum_congr rfl fun k _ => ?_))
  · exact congrArg (X (ix2 (i 0) k) * ·) (trSlice_apply W 0 hs0 ht k (i 1) (col0 (by decide) k) (Nat.zero_add _).symm)
  · exact congrArg (Y (ix2 (i 0) k) * ·) (trSlice_apply W 128 hs1 ht k (i 1) (col1 (by decide) k) rfl)

/-- Three products with the three transposed column blocks of a 384-column weight, added left to right, plus the bias
    row: the layer on the three concatenated blocks. -/
theorem lin3_tr_eq (X Y Z : Mat M 128) (W : Mat 128 384) (b : Vect 128)
    (hs0 : (⟨2, ![128, 384]⟩ : Shape).Slices ![0, 0] ⟨2, ![128, 128]⟩)
    (hs1 : (⟨2, ![128, 384]⟩ : Shape).Slices ![0, 128] ⟨2, ![128, 128]⟩)
    (hs2 : (⟨2, ![128, 384]⟩ : Shape).Slices ![0, 256] ⟨2, ![128, 128]⟩)
    (ht : (⟨2, ![128, 128]⟩ : Shape).Transposes [1, 0] ⟨2, ![128, 128]⟩)
    (hc : (⟨1, ![128]⟩ : Shape).ShapeCasts ⟨2, ![1, 128]⟩) :
    lin3 X (transpose ⟨2, ![128, 128]⟩ [1, 0] (extractStridedSlice ⟨2, ![128, 128]⟩ ![0, 0] W hs0) ht)
        Y (transpose ⟨2, ![128, 128]⟩ [1, 0] (extractStridedSlice ⟨2, ![128, 128]⟩ ![0, 128] W hs1) ht)
        Z (transpose ⟨2, ![128, 128]⟩ [1, 0] (extractStridedSlice ⟨2, ![128, 128]⟩ ![0, 256] W hs2) ht)
        (rowVec (shapeCast ⟨2, ![1, 128]⟩ b hc))
      = dense3 X Y Z W b := by
  rw [rowVec_reshape]
  funext i
  refine congrArg (· + b (ix1 (i 1))) (congrArg₂ (· + ·) (congrArg₂ (· + ·) (Finset.sum_congr rfl fun k _ => ?_)
    (Finset.sum_congr rfl fun k _ => ?_)) (Finset.sum_congr rfl fun k _ => ?_))
  · exact congrArg (X (ix2 (i 0) k) * ·) (trSlice_apply W 0 hs0 ht k (i 1) (col0 (by decide) k) (Nat.zero_add _).symm)
  · exact congrArg (Y (ix2 (i 0) k) * ·) (trSlice_apply W 128 hs1 ht k (i 1) (col1 (by decide) k) rfl)
  · exact congrArg (Z (ix2 (i 0) k) * ·) (trSlice_apply W 256 hs2 ht k (i 1) (col2 (by decide) k) rfl)

end Cert.Gnn

end
-- ==== Proof.Layers.lean ====
/-
  The kernel's program computes the reference's layers, boundary by boundary.

  At every boundary between a stretch of host operations and a region each buffer the next step reads holds a stage of
  the reference: the degree factors and the arguments from the start; after the first region the first dense layer of
  the features and its row-scaled copy; then the aggregation of that copy over the edges, which both programs compute
  with the same gather and scatter-add; after the second region the second layer `agg · norm + norm₂ · dense` on the
  concatenation of the features and the first layer — the kernel's two products with the transposed column blocks of
  the weight are the two halves of the sum over the 256 concatenated columns —, and its scaled copy; the same once
  more with three blocks for the result.
-/
import proofs.«153759_j50448685859076_2_alg».proof.Proof.HostFacts
import proofs.«153759_j50448685859076_2_alg».proof.Proof.Region0
import proofs.«153759_j50448685859076_2_alg».proof.Proof.Region1
import proofs.«153759_j50448685859076_2_alg».proof.Proof.Region2
import proofs.«153759_j50448685859076_2_alg».proof.Proof.RefStages
import proofs.«153759_j50448685859076_2_alg».proof.Proof.LibWeightBlocks

set_option maxRecDepth 16384

noncomputable section

namespace Cert.Gnn.Kern

open Cert.KernelIdeal Cert.KernelIdeal.Gen Cert.Gnn Cert.Lib.BiasDot Cert.Lib.Dense Cert.Lib.RowLayers
open Idealize.ShloMosaic Idealize.ShloMosaic.TcCoe Idealize.SL.Sem

variable (m : (ℓ : Loc nD τ sig) → Buf (Elt Ideal) ℓ) (ρ : Dev nD → PrngReg) (c : Dev nD)

/-! ## The first region: the first dense layer and its scaled copy -/

theorem w4_h0 : W4 m ρ c (Proc.devRef .tc main_v12_0) = (Cert.ReferenceIdeal.Read.val_main_v14 (F := Ideal) (m ((c : Thread nD τ).loc main_arg0)) (m ((c : Thread nD τ).loc main_arg3)) (m ((c : Thread nD τ).loc main_arg4))) := by
  refine (W4_arr m ρ c 4).trans ((arr0_4 (V3 m ρ) c).trans ?_)
  rw [show V3 m ρ c main_arg0 = (m ((c : Thread nD τ).loc main_arg0)) from w3_arg0 m ρ c,
    show V3 m ρ c main_v10 = (transpose S128x128 [1, 0] (m ((c : Thread nD τ).loc main_arg3)) transposes_S128x128_S128x128_1_0) from w3_v10 m ρ c,
    show V3 m ρ c main_v11 = (shapeCast S1x128 (m ((c : Thread nD τ).loc main_arg4)) shapeCasts_S128_S1x128) from w3_v11 m ρ c,
    Cert.Gnn.Ref.v14_eq]
  exact lin_tr_eq _ _ _ _ _

theorem w4_m0 : W4 m ρ c (Proc.devRef .tc main_v12_1) = (Cert.ReferenceIdeal.Read.val_main_v16 (F := Ideal) (m ((c : Thread nD τ).loc main_arg0)) (m ((c : Thread nD τ).loc main_arg2)) (m ((c : Thread nD τ).loc main_arg3)) (m ((c : Thread nD τ).loc main_arg4))) := by
  refine (W4_arr m ρ c 5).trans ((arr0_5 (V3 m ρ) c).trans ?_)
  rw [show V3 m ρ c main_arg0 = (m ((c : Thread nD τ).loc main_arg0)) from w3_arg0 m ρ c,
    show V3 m ρ c main_v10 = (transpose S128x128 [1, 0] (m ((c : Thread nD τ).loc main_arg3)) transposes_S128x128_S128x128_1_0) from w3_v10 m ρ c,
    show V3 m ρ c main_v11 = (shapeCast S1x128 (m ((c : Thread nD τ).loc main_arg4)) shapeCasts_S128_S1x128) from w3_v11 m ρ c,
    show V3 m ρ c main_v7 = (Cert.ReferenceIdeal.Read.val_main_v7 (F := Ideal) (m ((c : Thread nD τ).loc main_arg2))) from w3_v7 m ρ c,
    Cert.Gnn.Ref.v16_eq, Cert.Gnn.Ref.v14_eq]
  exact congrArg (scaleRows · _) (lin_tr_eq _ _ _ _ _)

theorem w4_arg0 : W4 m ρ c (Proc.devRef .tc main_arg0) = (m ((c : Thread nD τ).loc main_arg0)) :=
  (W4_keep m ρ c main_arg0 (by decide) (by decide)).trans (w3_arg0 m ρ c)

theorem w4_arg1 : W4 m ρ c (Proc.devRef .tc main_arg1) = (m ((c : Thread nD τ).loc main_arg1)) :=
  (W4_keep m ρ c main_arg1 (by decide) (by decide)).trans (w3_arg1 m ρ c)

theorem w4_arg2 : W4 m ρ c (Proc.devRef .tc main_arg2) = (m ((c : Thread nD τ).loc main_arg2)) :=
  (W4_keep m ρ c main_arg2 (by decide) (by decide)).trans (w3_arg2 m ρ c)

theorem w4_arg5 : W4 m ρ c (Proc.devRef .tc main_arg5) = (m ((c : Thread nD τ).loc main_arg5)) :=
  (W4_keep m ρ c main_arg5 (by decide) (by decide)).trans (w3_arg5 m ρ c)

theorem w4_arg6 : W4 m ρ c (Proc.devRef .tc main_arg6) = (m ((c : Thread nD τ).loc main_arg6)) :=
  (W4_keep m ρ c main_arg6 (by decide) (by decide)).trans (w3_arg6 m ρ c)

theorem w4_arg7 : W4 m ρ c (Proc.devRef .tc main_arg7) = (m ((c : Thread nD τ).loc main_arg7)) :=
  (W4_keep m ρ c main_arg7 (by decide) (by decide)).trans (w3_arg7 m ρ c)

theorem w4_arg8 : W4 m ρ c (Proc.devRef .tc main_arg8) = (m ((c : Thread nD τ).loc main_arg8)) :=
  (W4_keep m ρ c main_arg8 (by decide) (by decide)).trans (w3_arg8 m ρ c)

theorem w4_v7 : W4 m ρ c (Proc.devRef .tc main_v7) = (Cert.ReferenceIdeal.Read.val_main_v7 (F := Ideal) (m ((c : Thread nD τ).loc main_arg2))) := (W4_keep m ρ c main_v7 (by decide) (by decide)).trans (w3_v7 m ρ c)
theorem w4_v9 : W4 m ρ c (Proc.devRef .tc main_v9) = (Cert.ReferenceIdeal.Read.val_main_v9 (F := Ideal) (m ((c : Thread nD τ).loc main_arg2))) := (W4_keep m ρ c main_v9 (by decide) (by decide)).trans (w3_v9 m ρ c)

/-! ## The second region's entry, and the second layer -/

theorem v5_feat : V5 m ρ c main_arg0 = (m ((c : Thread nD τ).loc main_arg0)) := (w5_arg0 m ρ c).trans (w4_arg0 m ρ c)
theorem v5_h0 : V5 m ρ c main_v12_0 = (Cert.ReferenceIdeal.Read.val_main_v14 (F := Ideal) (m ((c : Thread nD τ).loc main_arg0)) (m ((c : Thread nD τ).loc main_arg3)) (m ((c : Thread nD τ).loc main_arg4))) := (w5_v12_0 m ρ c).trans (w4_h0 m ρ c)
theorem v5_n : V5 m ρ c main_v7 = (Cert.ReferenceIdeal.Read.val_main_v7 (F := Ideal) (m ((c : Thread nD τ).loc main_arg2))) := (w5_v7 m ρ c).trans (w4_v7 m ρ c)
theorem v5_n2 : V5 m ρ c main_v9 = (Cert.ReferenceIdeal.Read.val_main_v9 (F := Ideal) (m ((c : Thread nD τ).loc main_arg2))) := (w5_v9 m ρ c).trans (w4_v9 m ρ c)
theorem v5_agg : V5 m ρ c main_v22 = (Cert.ReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  refine (w5_v22 m ρ c).trans ?_
  rw [w4_m0, w4_arg1, w4_arg2]
  exact (ref_agg1 _ _ _ _ _).symm
theorem v5_wf : V5 m ρ c main_v24 = (transpose S128x128 [1, 0] (extractStridedSlice S128x128 ![0, 0] (m ((c : Thread nD τ).loc main_arg5)) slices_S128x256_S128x128_0_0) transposes_S128x128_S128x128_1_0) := by
  refine (w5_v24 m ρ c).trans ?_
  rw [w4_arg5]
theorem v5_wh : V5 m ρ c main_v26 = (transpose S128x128 [1, 0] (extractStridedSlice S128x128 ![0, 128] (m ((c : Thread nD τ).loc main_arg5)) slices_S128x256_S128x128_0_128) transposes_S128x128_S128x128_1_0) := by
  refine (w5_v26 m ρ c).trans ?_
  rw [w4_arg5]
theorem v5_b : V5 m ρ c main_v27 = (shapeCast S1x128 (m ((c : Thread nD τ).loc main_arg6)) shapeCasts_S128_S1x128) := by
  refine (w5_v27 m ρ c).trans ?_
  rw [w4_arg6]

theorem w6_h1 : W6 m ρ c (Proc.devRef .tc main_v28_0) = (Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W6_arr m ρ c 8).trans ((arr1_8 (V5 m ρ) c).trans ?_)
  rw [v5_feat, v5_h0, v5_n, v5_n2, v5_agg, v5_wf, v5_wh, v5_b, Cert.Gnn.Ref.v37_eq]
  exact congrArg (combine _ _ _ ·) (lin2_tr_eq _ _ _ _ _ _ _ _)

theorem w6_m1 : W6 m ρ c (Proc.devRef .tc main_v28_1) = (Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W6_arr m ρ c 9).trans ((arr1_9 (V5 m ρ) c).trans ?_)
  rw [v5_feat, v5_h0, v5_n, v5_n2, v5_agg, v5_wf, v5_wh, v5_b, Cert.Gnn.Ref.v39_eq, Cert.Gnn.Ref.v37_eq]
  exact congrArg (fun L => scaleRows (combine _ _ _ L) _) (lin2_tr_eq _ _ _ _ _ _ _ _)

theorem w6_arg0 : W6 m ρ c (Proc.devRef .tc main_arg0) = (m ((c : Thread nD τ).loc main_arg0)) := (W6_keep m ρ c main_arg0 (by decide) (by decide)).trans ((w5_arg0 m ρ c).trans (w4_arg0 m ρ c))
theorem w6_arg1 : W6 m ρ c (Proc.devRef .tc main_arg1) = (m ((c : Thread nD τ).loc main_arg1)) := (W6_keep m ρ c main_arg1 (by decide) (by decide)).trans ((w5_arg1 m ρ c).trans (w4_arg1 m ρ c))
theorem w6_arg2 : W6 m ρ c (Proc.devRef .tc main_arg2) = (m ((c : Thread nD τ).loc main_arg2)) := (W6_keep m ρ c main_arg2 (by decide) (by decide)).trans ((w5_arg2 m ρ c).trans (w4_arg2 m ρ c))
theorem w6_arg7 : W6 m ρ c (Proc.devRef .tc main_arg7) = (m ((c : Thread nD τ).loc main_arg7)) := (W6_keep m ρ c main_arg7 (by decide) (by decide)).trans ((w5_arg7 m ρ c).trans (w4_arg7 m ρ c))
theorem w6_arg8 : W6 m ρ c (Proc.devRef .tc main_arg8) = (m ((c : Thread nD τ).loc main_arg8)) := (W6_keep m ρ c main_arg8 (by decide) (by decide)).trans ((w5_arg8 m ρ c).trans (w4_arg8 m ρ c))
theorem w6_v7 : W6 m ρ c (Proc.devRef .tc main_v7) = (Cert.ReferenceIdeal.Read.val_main_v7 (F := Ideal) (m ((c : Thread nD τ).loc main_arg2))) := (W6_keep m ρ c main_v7 (by decide) (by decide)).trans ((w5_v7 m ρ c).trans (w4_v7 m ρ c))
theorem w6_v9 : W6 m ρ c (Proc.devRef .tc main_v9) = (Cert.ReferenceIdeal.Read.val_main_v9 (F := Ideal) (m ((c : Thread nD τ).loc main_arg2))) := (W6_keep m ρ c main_v9 (by decide) (by decide)).trans ((w5_v9 m ρ c).trans (w4_v9 m ρ c))
theorem w6_h0 : W6 m ρ c (Proc.devRef .tc main_v12_0) = (Cert.ReferenceIdeal.Read.val_main_v14 (F := Ideal) (m ((c : Thread nD τ).loc main_arg0)) (m ((c : Thread nD τ).loc main_arg3)) (m ((c : Thread nD τ).loc main_arg4))) := (W6_keep m ρ c main_v12_0 (by decide) (by decide)).trans ((w5_v12_0 m ρ c).trans (w4_h0 m ρ c))

/-! ## The third region's entry, and the result -/

theorem v7_feat : V7 m ρ c main_arg0 = (m ((c : Thread nD τ).loc main_arg0)) := (w7_arg0 m ρ c).trans (w6_arg0 m ρ c)
theorem v7_h0 : V7 m ρ c main_v12_0 = (Cert.ReferenceIdeal.Read.val_main_v14 (F := Ideal) (m ((c : Thread nD τ).loc main_arg0)) (m ((c : Thread nD τ).loc main_arg3)) (m ((c : Thread nD τ).loc main_arg4))) := (w7_v12_0 m ρ c).trans (w6_h0 m ρ c)
theorem v7_h1 : V7 m ρ c main_v28_0 = (Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := (w7_v28_0 m ρ c).trans (w6_h1 m ρ c)
theorem v7_n : V7 m ρ c main_v7 = (Cert.ReferenceIdeal.Read.val_main_v7 (F := Ideal) (m ((c : Thread nD τ).loc main_arg2))) := (w7_v7 m ρ c).trans (w6_v7 m ρ c)
theorem v7_n2 : V7 m ρ c main_v9 = (Cert.ReferenceIdeal.Read.val_main_v9 (F := Ideal) (m ((c : Thread nD τ).loc main_arg2))) := (w7_v9 m ρ c).trans (w6_v9 m ρ c)
theorem v7_agg : V7 m ρ c main_v38 = (Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (w7_v38 m ρ c).trans ?_
  rw [w6_m1, w6_arg1, w6_arg2]
  exact (ref_agg2 _ _ _ _ _ _ _).symm
theorem v7_wf : V7 m ρ c main_v40 = (transpose S128x128 [1, 0] (extractStridedSlice S128x128 ![0, 0] (m ((c : Thread nD τ).loc main_arg7)) slices_S128x384_S128x128_0_0) transposes_S128x128_S128x128_1_0) := by
  refine (w7_v40 m ρ c).trans ?_
  rw [w6_arg7]
theorem v7_wh0 : V7 m ρ c main_v42 = (transpose S128x128 [1, 0] (extractStridedSlice S128x128 ![0, 128] (m ((c : Thread nD τ).loc main_arg7)) slices_S128x384_S128x128_0_128) transposes_S128x128_S128x128_1_0) := by
  refine (w7_v42 m ρ c).trans ?_
  rw [w6_arg7]
theorem v7_wh1 : V7 m ρ c main_v44 = (transpose S128x128 [1, 0] (extractStridedSlice S128x128 ![0, 256] (m ((c : Thread nD τ).loc main_arg7)) slices_S128x384_S128x128_0_256) transposes_S128x128_S128x128_1_0) := by
  refine (w7_v44 m ρ c).trans ?_
  rw [w6_arg7]
theorem v7_b : V7 m ρ c main_v45 = (shapeCast S1x128 (m ((c : Thread nD τ).loc main_arg8)) shapeCasts_S128_S1x128) := by
  refine (w7_v45 m ρ c).trans ?_
  rw [w6_arg8]

/-- The result array after the run is the reference's last stage of the arguments. -/
theorem w8_out : W8 m ρ c (Proc.devRef .tc main_v46) = (Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W8_arr m ρ c 10).trans ((arr2_10 (V7 m ρ) c).trans ?_)
  rw [v7_feat, v7_h0, v7_h1, v7_n, v7_n2, v7_agg, v7_wf, v7_wh0, v7_wh1, v7_b, Cert.Gnn.Ref.v60_eq]
  exact congrArg (combine _ _ _ ·) (lin3_tr_eq _ _ _ _ _ _ _ _ _ _)

end Cert.Gnn.Kern

end
-- ==== Proof.lean ====
/-
  A three-layer degree-normalised graph network: the kernel's program against its reference, on the extended reals.

  Both programs compute `norm = max(1, in-degree)^(-1/2)` and `norm₂ = 1 / max(1, in-degree)` from the destination
  indices, a first dense layer `h₀ = feat · W₀ᵀ + b₀`, and twice a layer
  `h = agg(h_prev · norm) · norm + norm₂ · (concat(feat, h₀, …) · Wᵀ + b)`, where `agg` gathers rows at the edge
  sources and scatter-adds them at the edge destinations. The reference concatenates the earlier activations and
  multiplies by the whole transposed weight; the kernel never builds the concatenation: in three regions of 50 row
  blocks each it multiplies every block by the transposed 128-column blocks of the weight and adds the products.
  The two agree because a sum over the concatenated axis splits at the seams — associativity of addition on the
  extended reals, nothing that needs a finite value —, and everything else (the degree factors, the gathers and
  scatter-adds, the order of the factors) is the same operation applied to equal arrays.

  The three frames are the programs' runs with the value dropped; the idealization changed no operation, so there is
  nothing to preserve; the value claim takes the kernel's run with its result array named at the last boundary's
  contents, which the layer-by-layer comparison identifies with the reference's last stage.
-/
import proofs.«153759_j50448685859076_2_alg».proof.Defs
import proofs.«153759_j50448685859076_2_alg».proof.Proof.Gen.Kernel
import proofs.«153759_j50448685859076_2_alg».proof.Proof.Gen.Kernel.Frame
import proofs.«153759_j50448685859076_2_alg».proof.Proof.Gen.KernelIdeal
import proofs.«153759_j50448685859076_2_alg».proof.Proof.Gen.KernelIdeal.Frame
import proofs.«153759_j50448685859076_2_alg».proof.Proof.Gen.ReferenceIdeal
import proofs.«153759_j50448685859076_2_alg».proof.Proof.Gen.Pre_finite_inputs
import proofs.«153759_j50448685859076_2_alg».proof.Proof.Gen.ReferenceIdeal.Run
import proofs.«153759_j50448685859076_2_alg».proof.Proof.Gen.ReferenceIdeal.Read
import proofs.«153759_j50448685859076_2_alg».proof.Proof.RunNamed
import proofs.«153759_j50448685859076_2_alg».proof.Proof.Layers
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no region: its frame is its run with the value dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the reference's last stage of the arguments in
    their result arrays. -/
theorem algebraic : Cert.algebraic_KernelIdeal_ReferenceIdeal := by
  intro m ρ m' ρ' _ hagree
  refine ⟨fun c => Cert.KernelIdeal.Gen.W8 m ρ c (Proc.devRef .tc Cert.KernelIdeal.main_v46),
    Cert.Gnn.Kern.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v60_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact (Cert.Gnn.Kern.w8_out m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
